-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200000x3 : Shape := ⟨3, ![32, 200000, 3]⟩
abbrev S32x3x4 : Shape := ⟨3, ![32, 3, 4]⟩
abbrev S_ : Shape := ⟨0, ![]⟩

class Facts : Prop where
  bcast_S_S32x200000x3 : S_.BroadcastsInDim S32x200000x3 (![] : Fin 0 → Fin S32x200000x3.rank)
  reducesTo_S32x200000x3_S_d0_1_2 : S32x200000x3.ReducesTo [0, 1, 2] S_
  h_S_ : 0 < S_.numel
  bcast_S_S32x3x4 : S_.BroadcastsInDim S32x3x4 (![] : Fin 0 → Fin S32x3x4.rank)
  reducesTo_S32x3x4_S_d0_1_2 : S32x3x4.ReducesTo [0, 1, 2] S_

variable [Facts]

def fn {F : FTy → Type} [FloatOps F] (main_arg0 : FVec F S32x200000x3 .f32) (main_arg1 : FVec F S32x3x4 .f32) : IVec S_ 1 :=
  let main_v0 : FVec F S32x200000x3 .f32 := Host.absf main_arg0
  let main_cst : FVec F S_ .f32 := constant S_ .f32 0x7F800000#32
  let main_v1 : FVec F S32x200000x3 .f32 := broadcastInDim S32x200000x3 ![] bcast_S_S32x200000x3 main_cst
  let main_v2 : IVec S32x200000x3 1 := cmpf .olt main_v0 main_v1
  let main_c : IVec S_ 1 := constantI S_ 1 1#1
  let main_v3 : IVec S_ 1 := (fun x v => Host.reduce IntOp.andi x v reducesTo_S32x200000x3_S_d0_1_2 h_S_) main_v2 main_c
  let main_v4 : FVec F S32x3x4 .f32 := Host.absf main_arg1
  let main_cst_0 : FVec F S_ .f32 := constant S_ .f32 0x7F800000#32
  let main_v5 : FVec F S32x3x4 .f32 := broadcastInDim S32x3x4 ![] bcast_S_S32x3x4 main_cst_0
  let main_v6 : IVec S32x3x4 1 := cmpf .olt main_v4 main_v5
  let main_c_1 : IVec S_ 1 := constantI S_ 1 1#1
  let main_v7 : IVec S_ 1 := (fun x v => Host.reduce IntOp.andi x v reducesTo_S32x3x4_S_d0_1_2 h_S_) main_v6 main_c_1
  let main_v8 : IVec S_ 1 := andi main_v3 main_v7
  main_v8
-- ==== Kernel.lean ====
abbrev S32x200000x3 : Shape := ⟨3, ![32, 200000, 3]⟩
abbrev S32x3x4 : Shape := ⟨3, ![32, 3, 4]⟩
abbrev S3x32x200000 : Shape := ⟨3, ![3, 32, 200000]⟩
abbrev S32x200000 : Shape := ⟨2, ![32, 200000]⟩
abbrev S3x32x16384 : Shape := ⟨3, ![3, 32, 16384]⟩
abbrev S32x16384 : Shape := ⟨2, ![32, 16384]⟩
abbrev S1x32x16384 : Shape := ⟨3, ![1, 32, 16384]⟩
abbrev S32x1x1 : Shape := ⟨3, ![32, 1, 1]⟩
abbrev S32 : Shape := ⟨1, ![32]⟩
abbrev S32x1 : Shape := ⟨2, ![32, 1]⟩
abbrev S6400000 : Shape := ⟨1, ![6400000]⟩
abbrev S_ : Shape := ⟨0, ![]⟩
abbrev S33554432 : Shape := ⟨1, ![33554432]⟩
abbrev S6400000x1 : Shape := ⟨2, ![6400000, 1]⟩
abbrev S33554432x1 : Shape := ⟨2, ![33554432, 1]⟩
abbrev S32x1024x1024 : Shape := ⟨3, ![32, 1024, 1024]⟩

abbrev nBuf : Space → Nat
  | .hbm => 33
  | .vmem => 7
  | .smem => 0
  | _ => 0

abbrev bufTy : (tb : Table) → Fin (tcTables nBuf tb) → BufTy
  | .hbm, ⟨0, _⟩ => ⟨S32x200000x3, .f32⟩
  | .hbm, ⟨1, _⟩ => ⟨S32x3x4, .f32⟩
  | .hbm, ⟨2, _⟩ => ⟨S3x32x200000, .f32⟩
  | .hbm, ⟨3, _⟩ => ⟨S32x200000, .i32⟩
  | .hbm, ⟨4, _⟩ => ⟨S32x200000, .f32⟩
  | .hbm, ⟨5, _⟩ => ⟨S6400000, .i32⟩
  | .hbm, ⟨6, _⟩ => ⟨S6400000, .f32⟩
  | .hbm, ⟨7, _⟩ => ⟨S6400000, .i32⟩
  | .hbm, ⟨8, _⟩ => ⟨S_, .i32⟩
  | .hbm, ⟨9, _⟩ => ⟨S33554432, .i32⟩
  | .hbm, ⟨10, _⟩ => ⟨S6400000x1, .i32⟩
  | .hbm, ⟨11, _⟩ => ⟨S33554432, .i32⟩
  | .hbm, ⟨12, _⟩ => ⟨S_, .i32⟩
  | .hbm, ⟨13, _⟩ => ⟨S33554432, .i32⟩
  | .hbm, ⟨14, _⟩ => ⟨S33554432, .i1⟩
  | .hbm, ⟨15, _⟩ => ⟨S_, .i32⟩
  | .hbm, ⟨16, _⟩ => ⟨S_, .i32⟩
  | .hbm, ⟨17, _⟩ => ⟨S33554432, .i32⟩
  | .hbm, ⟨18, _⟩ => ⟨S33554432, .i32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S33554432, .f32⟩
  | .hbm, ⟨28, _⟩ => ⟨S_, .f32⟩
  | .hbm, ⟨29, _⟩ => ⟨S_, .f32⟩
  | .hbm, ⟨30, _⟩ => ⟨S33554432, .f32⟩
  | .hbm, ⟨31, _⟩ => ⟨S33554432, .f32⟩
  | .hbm, ⟨32, _⟩ => ⟨S32x1024x1024, .f32⟩
  | .local _ .vmem, ⟨0, _⟩ => ⟨S3x32x16384, .f32⟩
  | .local _ .vmem, ⟨1, _⟩ => ⟨S3x32x16384, .f32⟩
  | .local _ .vmem, ⟨2, _⟩ => ⟨S32x3x4, .f32⟩
  | .local _ .vmem, ⟨3, _⟩ => ⟨S32x16384, .i32⟩
  | .local _ .vmem, ⟨4, _⟩ => ⟨S32x16384, .i32⟩
  | .local _ .vmem, ⟨5, _⟩ => ⟨S32x16384, .f32⟩
  | .local _ .vmem, ⟨6, _⟩ => ⟨S32x16384, .f32⟩
  | _, _ => ⟨S32x200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x200000x3_S3x32x200000_2_0_1 : S32x200000x3.Transposes [2, 0, 1] S3x32x200000
  inb_S3x32x16384_S3x32x16384_0_0_0 : ∀ a, (![0, 0, 0] : Fin 3 → Nat) a + S3x32x16384.size a ≤ S3x32x16384.size a
  h_S3x32x16384 : 0 < S3x32x16384.numel
  shapeCasts_S3x32x16384_S3x32x16384 : S3x32x16384.ShapeCasts S3x32x16384
  inb_S32x3x4_S32x3x4_0_0_0 : ∀ a, (![0, 0, 0] : Fin 3 → Nat) a + S32x3x4.size a ≤ S32x3x4.size a
  h_S32x3x4 : 0 < S32x3x4.numel
  slices_S3x32x16384_o0_0_0_S1x32x16384 : S3x32x16384.Slices ![0, 0, 0] S1x32x16384
  shapeCasts_S1x32x16384_S32x16384 : S1x32x16384.ShapeCasts S32x16384
  slices_S3x32x16384_o1_0_0_S1x32x16384 : S3x32x16384.Slices ![1, 0, 0] S1x32x16384
  slices_S3x32x16384_o2_0_0_S1x32x16384 : S3x32x16384.Slices ![2, 0, 0] S1x32x16384
  slices_S32x3x4_o0_0_0_S32x1x1 : S32x3x4.Slices ![0, 0, 0] S32x1x1
  shapeCasts_S32x1x1_S32 : S32x1x1.ShapeCasts S32
  shapeCasts_S32_S32x1 : S32.ShapeCasts S32x1
  broadcasts_S32x1_S32x16384 : S32x1.Broadcasts S32x16384
  slices_S32x3x4_o0_0_1_S32x1x1 : S32x3x4.Slices ![0, 0, 1] S32x1x1
  slices_S32x3x4_o0_0_2_S32x1x1 : S32x3x4.Slices ![0, 0, 2] S32x1x1
  slices_S32x3x4_o0_0_3_S32x1x1 : S32x3x4.Slices ![0, 0, 3] S32x1x1
  slices_S32x3x4_o0_1_0_S32x1x1 : S32x3x4.Slices ![0, 1, 0] S32x1x1
  slices_S32x3x4_o0_1_1_S32x1x1 : S32x3x4.Slices ![0, 1, 1] S32x1x1
  slices_S32x3x4_o0_1_2_S32x1x1 : S32x3x4.Slices ![0, 1, 2] S32x1x1
  slices_S32x3x4_o0_1_3_S32x1x1 : S32x3x4.Slices ![0, 1, 3] S32x1x1
  slices_S32x3x4_o0_2_0_S32x1x1 : S32x3x4.Slices ![0, 2, 0] S32x1x1
  slices_S32x3x4_o0_2_1_S32x1x1 : S32x3x4.Slices ![0, 2, 1] S32x1x1
  slices_S32x3x4_o0_2_2_S32x1x1 : S32x3x4.Slices ![0, 2, 2] S32x1x1
  slices_S32x3x4_o0_2_3_S32x1x1 : S32x3x4.Slices ![0, 2, 3] S32x1x1
  iota_S32x1_d0_w32 : S32x1.Iotas .tc 32 [0]
  iota_S32x16384_d1_w32 : S32x16384.Iotas .tc 32 [1]
  inb_S32x16384_S32x16384_0_0 : ∀ a, (![0, 0] : Fin 2 → Nat) a + S32x16384.size a ≤ S32x16384.size a
  h_S32x16384 : 0 < S32x16384.numel
  shapeCasts_S32x200000_S6400000 : S32x200000.ShapeCasts S6400000
  bcast_S_S33554432 : S_.BroadcastsInDim S33554432 (![] : Fin 0 → Fin S33554432.rank)
  bcast_S6400000_S6400000x1_0 : S6400000.BroadcastsInDim S6400000x1 (![0] : Fin 1 → Fin S6400000x1.rank)
  bcast_S33554432_S33554432x1_0 : S33554432.BroadcastsInDim S33554432x1 (![0] : Fin 1 → Fin S33554432x1.rank)
  shapeCasts_S33554432_S32x1024x1024 : S33554432.ShapeCasts S32x1024x1024
  scatter_S33554432_S6400000x1_S6400000_n_0_0_1_wf : ScatterDims.WF S33554432 S6400000x1 S6400000 [] [0] [0] 1
  gather_S6400000_S33554432x1_S33554432_n_0_n_n_0_1_1_wf : GatherDims.WF S6400000 S33554432x1 S33554432 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3x32x16384.size a < S3x32x200000.size a
  hwx0_0 : ∀ i : grid0.Coords, EltTy.bits .f32 = 32 ∨ (Rect.unit (s := S3x32x200000) (fun a => cc0_transform_0 i a * S3x32x16384.size a) (fun a => (Pipeline.Clip.of (cc0_transform_0 i a) (S3x32x16384.size a) (S3x32x200000.size a)).extent (S3x32x16384.size a)) fun a => Pipeline.Clip.inb (Pipeline.Clip.ok_of (hstart0_0 i a))).WholeWords (EltTy.packing .f32)
  hwxs0_0 : ∀ i : grid0.Coords, EltTy.bits .f32 = 32 ∨ (Rect.unit (s := S3x32x16384) (fun _ => 0) (fun a => (Pipeline.Clip.of (cc0_transform_0 i a) (S3x32x16384.size a) (S3x32x200000.size a)).extent (S3x32x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3x4.size a ≤ S32x3x4.size a
  hwx0_1 : ∀ i : grid0.Coords, EltTy.bits .f32 = 32 ∨ (Rect.block (s := S32x3x4) S32x3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x16384.size a < S32x200000.size a
  hwx0_2 : ∀ i : grid0.Coords, EltTy.bits .i32 = 32 ∨ (Rect.unit (s := S32x200000) (fun a => cc0_transform_2 i a * S32x16384.size a) (fun a => (Pipeline.Clip.of (cc0_transform_2 i a) (S32x16384.size a) (S32x200000.size a)).extent (S32x16384.size a)) fun a => Pipeline.Clip.inb (Pipeline.Clip.ok_of (hstart0_2 i a))).WholeWords (EltTy.packing .i32)
  hwxs0_2 : ∀ i : grid0.Coords, EltTy.bits .i32 = 32 ∨ (Rect.unit (s := S32x16384) (fun _ => 0) (fun a => (Pipeline.Clip.of (cc0_transform_2 i a) (S32x16384.size a) (S32x200000.size a)).extent (S32x16384.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S32x16384.size a < S32x200000.size a
  hwx0_3 : ∀ i : grid0.Coords, EltTy.bits .f32 = 32 ∨ (Rect.unit (s := S32x200000) (fun a => cc0_transform_3 i a * S32x16384.size a) (fun a => (Pipeline.Clip.of (cc0_transform_3 i a) (S32x16384.size a) (S32x200000.size a)).extent (S32x16384.size a)) fun a => Pipeline.Clip.inb (Pipeline.Clip.ok_of (hstart0_3 i a))).WholeWords (EltTy.packing .f32)
  hwxs0_3 : ∀ i : grid0.Coords, EltTy.bits .f32 = 32 ∨ (Rect.unit (s := S32x16384) (fun _ => 0) (fun a => (Pipeline.Clip.of (cc0_transform_3 i a) (S32x16384.size a) (S32x200000.size a)).extent (S32x16384.size a)) fun a => (Nat.zero_add _).trans_le (Pipeline.Clip.extent_le (Pipeline.Clip.ok_of (hstart0_3 i a)))).WholeWords (EltTy.packing .f32)

variable [Facts₀]

def scatter_S33554432_S6400000x1_S6400000_n_0_0_1 : ScatterDims S33554432 S6400000x1 S6400000 where
  updateWindowDims := []
  insertedWindowDims := [0]
  scatterDimsToOperandDims := [0]
  indexVectorDim := 1
  wf := scatter_S33554432_S6400000x1_S6400000_n_0_0_1_wf
def gather_S6400000_S33554432x1_S33554432_n_0_n_n_0_1_1 : GatherDims S6400000 S33554432x1 S33554432 where
  offsetDims := []
  collapsedSliceDims := [0]
  operandBatchingDims := []
  startIndicesBatchingDims := []
  startIndexMap := [0]
  indexVectorDim := 1
  sliceSizes := ![1]
  wf := gather_S6400000_S33554432x1_S33554432_n_0_n_n_0_1_1_wf

abbrev win0_0 : Pipeline.Window sig grid0 :=
  Pipeline.Window.ofSpecClip (Memref.whole main_v0) S3x32x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S32x3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1_0) S32x16384.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1_1) S32x16384.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x200000x3 : Shape := ⟨3, ![32, 200000, 3]⟩
abbrev S32x3x4 : Shape := ⟨3, ![32, 3, 4]⟩
abbrev S_ : Shape := ⟨0, ![]⟩
abbrev S32x200000x1 : Shape := ⟨3, ![32, 200000, 1]⟩
abbrev S32x200000x4 : Shape := ⟨3, ![32, 200000, 4]⟩
abbrev S32x200000 : Shape := ⟨2, ![32, 200000]⟩
abbrev S32 : Shape := ⟨1, ![32]⟩
abbrev S32x1 : Shape := ⟨2, ![32, 1]⟩
abbrev S6400000 : Shape := ⟨1, ![6400000]⟩
abbrev S33554432 : Shape := ⟨1, ![33554432]⟩
abbrev S6400000x1 : Shape := ⟨2, ![6400000, 1]⟩
abbrev S33554432x1 : Shape := ⟨2, ![33554432, 1]⟩
abbrev S32x1024x1024 : Shape := ⟨3, ![32, 1024, 1024]⟩

abbrev nBuf : Space → Nat
  | .hbm => 92
  | .vmem => 0
  | .smem => 0
  | _ => 0

abbrev bufTy : (tb : Table) → Fin (tcTables nBuf tb) → BufTy
  | .hbm, ⟨0, _⟩ => ⟨S32x200000x3, .f32⟩
  | .hbm, ⟨1, _⟩ => ⟨S32x3x4, .f32⟩
  | .hbm, ⟨2, _⟩ => ⟨S_, .f32⟩
  | .hbm, ⟨3, _⟩ => ⟨S32x200000x1, .f32⟩
  | .hbm, ⟨4, _⟩ => ⟨S32x200000x4, .f32⟩
  | .hbm, ⟨5, _⟩ => ⟨S32x200000x3, .f32⟩
  | .hbm, ⟨6, _⟩ => ⟨S_, .f32⟩
  | .hbm, ⟨7, _⟩ => ⟨S32x200000x3, .f32⟩
  | .hbm, ⟨8, _⟩ => ⟨S32x200000x3, .f32⟩
  | .hbm, ⟨9, _⟩ => ⟨S32x200000x1, .f32⟩
  | .hbm, ⟨10, _⟩ => ⟨S32x200000, .f32⟩
  | .hbm, ⟨11, _⟩ => ⟨S_, .f32⟩
  | .hbm, ⟨12, _⟩ => ⟨S32x200000, .f32⟩
  | .hbm, ⟨13, _⟩ => ⟨S32x200000, .f32⟩
  | .hbm, ⟨14, _⟩ => ⟨S_, .f32⟩
  | .hbm, ⟨15, _⟩ => ⟨S32x200000, .f32⟩
  | .hbm, ⟨16, _⟩ => ⟨S32x200000, .f32⟩
  | .hbm, ⟨17, _⟩ => ⟨S_, .f32⟩
  | .hbm, ⟨18, _⟩ => ⟨S32x200000, .f32⟩
  | .hbm, ⟨19, _⟩ => ⟨S32x200000, .f32⟩
  | .hbm, ⟨20, _⟩ => ⟨S_, .f32⟩
  | .hbm, ⟨21, _⟩ => ⟨S_, .i32⟩
  | .hbm, ⟨22, _⟩ => ⟨S_, .f32⟩
  | .hbm, ⟨23, _⟩ => ⟨S32x200000, .f32⟩
  | .hbm, ⟨24, _⟩ => ⟨S32x200000, .f32⟩
  | .hbm, ⟨25, _⟩ => ⟨S_, .f32⟩
  | .hbm, ⟨26, _⟩ => ⟨S32x200000, .f32⟩
  | .hbm, ⟨27, _⟩ => ⟨S32x200000, .f32⟩
  | .hbm, ⟨28, _⟩ => ⟨S32x200000x1, .f32⟩
  | .hbm, ⟨29, _⟩ => ⟨S32x200000, .f32⟩
  | .hbm, ⟨30, _⟩ => ⟨S_, .f32⟩
  | .hbm, ⟨31, _⟩ => ⟨S32x200000, .f32⟩
  | .hbm, ⟨32, _⟩ => ⟨S32x200000, .f32⟩
  | .hbm, ⟨33, _⟩ => ⟨S_, .f32⟩
  | .hbm, ⟨34, _⟩ => ⟨S32x200000, .f32⟩
  | .hbm, ⟨35, _⟩ => ⟨S32x200000, .f32⟩
  | .hbm, ⟨36, _⟩ => ⟨S_, .f32⟩
  | .hbm, ⟨37, _⟩ => ⟨S32x200000, .f32⟩
  | .hbm, ⟨38, _⟩ => ⟨S32x200000, .f32⟩
  | .hbm, ⟨39, _⟩ => ⟨S_, .f32⟩
  | .hbm, ⟨40, _⟩ => ⟨S_, .i32⟩
  | .hbm, ⟨41, _⟩ => ⟨S_, .f32⟩
  | .hbm, ⟨42, _⟩ => ⟨S32x200000, .f32⟩
  | .hbm, ⟨43, _⟩ => ⟨S32x200000, .f32⟩
  | .hbm, ⟨44, _⟩ => ⟨S_, .f32⟩
  | .hbm, ⟨45, _⟩ => ⟨S32x200000, .f32⟩
  | .hbm, ⟨46, _⟩ => ⟨S32x200000, .f32⟩
  | .hbm, ⟨47, _⟩ => ⟨S32x200000, .f32⟩
  | .hbm, ⟨48, _⟩ => ⟨S32x200000, .i32⟩
  | .hbm, ⟨49, _⟩ => ⟨S32x200000, .f32⟩
  | .hbm, ⟨50, _⟩ => ⟨S32x200000, .i32⟩
  | .hbm, ⟨51, _⟩ => ⟨S32x200000x1, .f32⟩
  | .hbm, ⟨52, _⟩ => ⟨S32x200000, .f32⟩
  | .hbm, ⟨53, _⟩ => ⟨S32, .i32⟩
  | .hbm, ⟨54, _⟩ => ⟨S32x1, .i32⟩
  | .hbm, ⟨55, _⟩ => ⟨S_, .i32⟩
  | .hbm, ⟨56, _⟩ => ⟨S32x1, .i32⟩
  | .hbm, ⟨57, _⟩ => ⟨S32x1, .i32⟩
  | .hbm, ⟨58, _⟩ => ⟨S_, .i32⟩
  | .hbm, ⟨59, _⟩ => ⟨S32x200000, .i32⟩
  | .hbm, ⟨60, _⟩ => ⟨S32x200000, .i32⟩
  | .hbm, ⟨61, _⟩ => ⟨S32x200000, .i32⟩
  | .hbm, ⟨62, _⟩ => ⟨S32x200000, .i32⟩
  | .hbm, ⟨63, _⟩ => ⟨S32x200000, .i32⟩
  | .hbm, ⟨64, _⟩ => ⟨S6400000, .i32⟩
  | .hbm, ⟨65, _⟩ => ⟨S6400000, .i32⟩
  | .hbm, ⟨66, _⟩ => ⟨S_, .i32⟩
  | .hbm, ⟨67, _⟩ => ⟨S33554432, .i32⟩
  | .hbm, ⟨68, _⟩ => ⟨S6400000x1, .i32⟩
  | .hbm, ⟨69, _⟩ => ⟨S33554432, .i32⟩
  | .hbm, ⟨70, _⟩ => ⟨S_, .i32⟩
  | .hbm, ⟨71, _⟩ => ⟨S33554432, .i32⟩
  | .hbm, ⟨72, _⟩ => ⟨S33554432, .i1⟩
  | .hbm, ⟨73, _⟩ => ⟨S_, .i32⟩
  | .hbm, ⟨74, _⟩ => ⟨S_, .i32⟩
  | .hbm, ⟨75, _⟩ => ⟨S33554432, .i32⟩
  | .hbm, ⟨76, _⟩ => ⟨S33554432, .i32⟩
  | .hbm, ⟨77, _⟩ => ⟨S6400000, .f32⟩
  | .hbm, ⟨78, _⟩ => ⟨S_, .i32⟩
  | .hbm, ⟨79, _⟩ => ⟨S33554432, .i32⟩
  | .hbm, ⟨80, _⟩ => ⟨S33554432, .i1⟩
  | .hbm, ⟨81, _⟩ => ⟨S_, .i32⟩
  | .hbm, ⟨82, _⟩ => ⟨S33554432, .i32⟩
  | .hbm, ⟨83, _⟩ => ⟨S33554432, .i32⟩
  | .hbm, ⟨84, _⟩ => ⟨S33554432, .i32⟩
  | .hbm, ⟨85, _⟩ => ⟨S33554432x1, .i32⟩
  | .hbm, ⟨86, _⟩ => ⟨S33554432, .f32⟩
  | .hbm, ⟨87, _⟩ => ⟨S_, .f32⟩
  | .hbm, ⟨88, _⟩ => ⟨S_, .f32⟩
  | .hbm, ⟨89, _⟩ => ⟨S33554432, .f32⟩
  | .hbm, ⟨90, _⟩ => ⟨S33554432, .f32⟩
  | .hbm, ⟨91, _⟩ => ⟨S32x1024x1024, .f32⟩
  | _, _ => ⟨S32x200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_c_9 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_13 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_call2_v0 : Ref sig .tc := ⟨.hbm, 74, rfl⟩
abbrev main_call2_v1 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_v48 : Ref sig .tc := ⟨.hbm, 80, rfl⟩
abbrev main_c_16 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_17 : Ref sig .tc := ⟨.hbm, 87, rfl⟩
abbrev main_call3_v0 : Ref sig .tc := ⟨.hbm, 88, rfl⟩
abbrev main_call3_v1 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S_S32x200000x1 : S_.BroadcastsInDim S32x200000x1 (![] : Fin 0 → Fin S32x200000x1.rank)
  concatenates_S32x200000x3_S32x200000x1_S32x200000x4_d2 : Shape.Concatenates [S32x200000x3, S32x200000x1] S32x200000x4 2
  bcast_S_S32x200000x3 : S_.BroadcastsInDim S32x200000x3 (![] : Fin 0 → Fin S32x200000x3.rank)
  slices_S32x200000x3_S32x200000x1_0_0_0 : S32x200000x3.Slices ![0, 0, 0] S32x200000x1
  shapeCasts_S32x200000x1_S32x200000 : S32x200000x1.ShapeCasts S32x200000
  bcast_S_S32x200000 : S_.BroadcastsInDim S32x200000 (![] : Fin 0 → Fin S32x200000.rank)
  slices_S32x200000x3_S32x200000x1_0_0_1 : S32x200000x3.Slices ![0, 0, 1] S32x200000x1
  slices_S32x200000x3_S32x200000x1_0_0_2 : S32x200000x3.Slices ![0, 0, 2] S32x200000x1
  bcast_S32_S32x1_0 : S32.BroadcastsInDim S32x1 (![0] : Fin 1 → Fin S32x1.rank)
  bcast_S_S32x1 : S_.BroadcastsInDim S32x1 (![] : Fin 0 → Fin S32x1.rank)
  bcast_S32x1_S32x200000_0_1 : S32x1.BroadcastsInDim S32x200000 (![0, 1] : Fin 2 → Fin S32x200000.rank)
  shapeCasts_S32x200000_S6400000 : S32x200000.ShapeCasts S6400000
  bcast_S_S33554432 : S_.BroadcastsInDim S33554432 (![] : Fin 0 → Fin S33554432.rank)
  bcast_S6400000_S6400000x1_0 : S6400000.BroadcastsInDim S6400000x1 (![0] : Fin 1 → Fin S6400000x1.rank)
  bcast_S33554432_S33554432x1_0 : S33554432.BroadcastsInDim S33554432x1 (![0] : Fin 1 → Fin S33554432x1.rank)
  shapeCasts_S33554432_S32x1024x1024 : S33554432.ShapeCasts S32x1024x1024
  dot_S32x200000x4_S32x3x4_S32x200000x3_2_2_1_1_0_0_wf : DotDims.WF S32x200000x4 S32x3x4 S32x200000x3 [2] [2] [1] [1] [0] [0]
  scatter_S33554432_S6400000x1_S6400000_n_0_0_1_wf : ScatterDims.WF S33554432 S6400000x1 S6400000 [] [0] [0] 1
  gather_S6400000_S33554432x1_S33554432_n_0_n_n_0_1_1_wf : GatherDims.WF S6400000 S33554432x1 S33554432 [] [0] [] [0] [] 1 ![1]

variable [Facts₀]

def dot_S32x200000x4_S32x3x4_S32x200000x3_2_2_1_1_0_0 : DotDims S32x200000x4 S32x3x4 S32x200000x3 where
  lhsContracting := [2]
  rhsContracting := [2]
  lhsNonContracting := [1]
  rhsNonContracting := [1]
  lhsBatch := [0]
  rhsBatch := [0]
  wf := dot_S32x200000x4_S32x3x4_S32x200000x3_2_2_1_1_0_0_wf
def scatter_S33554432_S6400000x1_S6400000_n_0_0_1 : ScatterDims S33554432 S6400000x1 S6400000 where
  updateWindowDims := []
  insertedWindowDims := [0]
  scatterDimsToOperandDims := [0]
  indexVectorDim := 1
  wf := scatter_S33554432_S6400000x1_S6400000_n_0_0_1_wf
def gather_S6400000_S33554432x1_S33554432_n_0_n_n_0_1_1 : GatherDims S6400000 S33554432x1 S33554432 where
  offsetDims := []
  collapsedSliceDims := [0]
  operandBatchingDims := []
  startIndicesBatchingDims := []
  startIndexMap := [0]
  indexVectorDim := 1
  sliceSizes := ![1]
  wf := gather_S6400000_S33554432x1_S33554432_n_0_n_n_0_1_1_wf

class Facts : Prop extends Facts₀ where

variable [Facts]
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibPlanes.lean ====
/-
  Reading a coordinate plane and a matrix entry's column through the layout operations a kernel body uses.

  A stack of `n` planes `[n, a, b]` sliced at one coordinate of its leading axis and viewed as a matrix `[a, b]`
  reads, at `(p, q)`, the stack at `(k, p, q)`. An `[a, c, d]` array of small matrices sliced at one entry `(u, v)`
  of every matrix, flattened to a vector, stood up as a column and repeated along `b` columns reads, at `(p, q)`,
  entry `(u, v)` of matrix `p`.
-/
import Idealize.ShloMosaic.Lib.Pipeline.Value
import Idealize.ShloMosaic.Lib.ValueIdx
import Idealize.ShloMosaic.Lib.ValueLayout
import proofs.«162000_j8263517077853_2_alg».proof.Proof.LibColBroadcast
import proofs.«162000_j8263517077853_2_alg».proof.Proof.LibColumnCast

namespace Cert.LibPlanes

open Idealize.ShloMosaic Idealize.ShloMosaic.ValueIdx

variable {α : Type}

/-- Plane `o` of an `[n, a, b]` stack, viewed `[a, b]`, reads `(o, p, q)` at `(p, q)`. -/
theorem plane_apply {n a b : ℕ} (o : ℕ) (ho : o < n) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  refine extractStridedSlice_apply _ X hs _ (ix3 (⟨o, ho⟩ : Fin n) p q) fun ax => ?_
  match ax with
  | ⟨0, _⟩ => show o = o + 0; omega
  | ⟨1, _⟩ => show p.val = 0 + p.val; omega
  | ⟨2, _⟩ => show q.val = 0 + q.val; omega

/-- Entry `(u, v)` of each of `a` small matrices, as a column repeated `b` times, reads matrix `p`'s entry at `(p, q)`. -/
theorem entry_column_apply {a c d b : ℕ} (u v : ℕ) (hu : u < c) (hv : v < d) (T : (⟨3, ![a, c, d]⟩ : Shape).Idx → α)
    (hs : (⟨3, ![a, c, d]⟩ : Shape).Slices ![0, u, v] ⟨3, ![a, 1, 1]⟩)
    (h1 : (⟨3, ![a, 1, 1]⟩ : Shape).ShapeCasts ⟨1, ![a]⟩)
    (h2 : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ (shapeCast ⟨1, ![a]⟩
        (extractStridedSlice ⟨3, ![a, 1, 1]⟩ ![0, u, v] T hs) h1) h2) hb (ix2 p q)
      = T (ix3 p (⟨u, hu⟩ : Fin c) (⟨v, hv⟩ : Fin d)) := by
  rw [Cert.LibColBroadcast.broadcastTo_a1_ab_apply, Cert.LibColumnCast.shapeCast_a_a1_apply]
  refine (shapeCast_apply _ h1 (ix1 p) (ix3 p (0 : Fin 1) (0 : Fin 1)) ?_).trans ?_
  · rw [Shape.rowMajor_val_three, Shape.rowMajor_val_one]
    show (p.val * 1 + 0) * 1 + 0 = p.val
    omega
  · refine extractStridedSlice_apply _ T hs _ (ix3 p (⟨u, hu⟩ : Fin c) (⟨v, hv⟩ : Fin d)) fun ax => ?_
    match ax with
    | ⟨0, _⟩ => show p.val = 0 + p.val; omega
    | ⟨1, _⟩ => show u = u + 0; omega
    | ⟨2, _⟩ => show v = v + 0; omega

end Cert.LibPlanes
-- ==== Proof.KBody.lean ====
/-
  The body of the projection kernel, for any float instance.

  At a grid point the body loads a block `X : [3, 32, 16384]` of the transposed point cloud (planes x, y, z; batch
  `b` on the rows, point `n` on the columns) and the `32` affine matrices `T : [32, 3, 4]`, and stores two
  `[32, 16384]` blocks: the pixel index `pix` and the depth `z`. Each stored entry `(b, n)` is a function of the
  three coordinates `X (·, b, n)` of ONE point and of matrix `T b` alone: every operation between the loads and the
  stores acts entry by entry on `[32, 16384]` matrices, the three planes are read off `X` at `(k, b, n)`, and the
  matrix entries enter as columns constant along `n`. So two blocks `X`, `X'` that agree on column `n` give the
  same stored entries on column `n`: whatever lies in the columns of a block past the array's end never reaches a
  column inside it.
-/
import proofs.«162000_j8263517077853_2_alg».proof.Proof.Gen.Kernel.Skeleton
import proofs.«162000_j8263517077853_2_alg».proof.Proof.Gen.Kernel.Frame
import proofs.«162000_j8263517077853_2_alg».proof.Proof.LibPlanes
import Idealize.ShloMosaic.Lib.Pipeline.Value
import Idealize.ShloMosaic.Lib.Pipeline.FrameBody
import Idealize.ShloMosaic.Lib.Tactic

set_option maxRecDepth 100000

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body stores -/

/-- The pixel-index block stored at grid coordinate `g`, from the two loaded blocks. -/
def pixOf (g : BitVec 32) (X : Vec F S3x32x16384 .f32) (T : Vec F S32x3x4 .f32) : IVec S32x16384 32 :=
  k0_pay1 g (k0_pay9 (k0_pay6 X T)) (k0_pay10 (k0_pay7 X T)) (k0_pay11 (F := F))

/-- The depth block stored, from the two loaded blocks. -/
def zOf (X : Vec F S3x32x16384 .f32) (T : Vec F S32x3x4 .f32) : FVec F S32x16384 .f32 :=
  k0_pay8 T (k0_pay3 X) (k0_pay4 X) (k0_pay5 X)

/-! ## The three planes of a block, entry by entry -/

theorem plane_x (X : Vec F S3x32x16384 .f32) (b : Fin 32) (n : Fin 16384) :
    k0_pay3 X (ix2 b n) = X (ix3 (0 : Fin 3) b n) := by
  unfold k0_pay3 k0_pay2
  rw [shapeCast_self]
  exact Cert.LibPlanes.plane_apply 0 (by decide) X _ _ b n

theorem plane_y (X : Vec F S3x32x16384 .f32) (b : Fin 32) (n : Fin 16384) :
    k0_pay4 X (ix2 b n) = X (ix3 (1 : Fin 3) b n) := by
  unfold k0_pay4 k0_pay2
  rw [shapeCast_self]
  exact Cert.LibPlanes.plane_apply 1 (by decide) X _ _ b n

theorem plane_z (X : Vec F S3x32x16384 .f32) (b : Fin 32) (n : Fin 16384) :
    k0_pay5 X (ix2 b n) = X (ix3 (2 : Fin 3) b n) := by
  unfold k0_pay5 k0_pay2
  rw [shapeCast_self]
  exact Cert.LibPlanes.plane_apply 2 (by decide) X _ _ b n

/-! ## Column `n` of what is stored depends on column `n` of the block alone -/

theorem pixOf_congr (g : BitVec 32) (X X' : Vec F S3x32x16384 .f32) (T : Vec F S32x3x4 .f32) (b : Fin 32) (n : Fin 16384)
    (h : ∀ k : Fin 3, X (ix3 k b n) = X' (ix3 k b n)) : pixOf g X T (ix2 b n) = pixOf g X' T (ix2 b n) := by
  have hx : k0_pay3 X (ix2 b n) = k0_pay3 X' (ix2 b n) := by rw [plane_x, plane_x, h]
  have hy : k0_pay4 X (ix2 b n) = k0_pay4 X' (ix2 b n) := by rw [plane_y, plane_y, h]
  have hz : k0_pay5 X (ix2 b n) = k0_pay5 X' (ix2 b n) := by rw [plane_z, plane_z, h]
  simp only [pixOf, k0_pay1, k0_pay9, k0_pay10, k0_pay6, k0_pay7, select, cmpi, addi, muli, fptosi, floor, minimumf,
    maximumf, mulf, addf, subf, divf, hx, hy, hz]

theorem zOf_congr (X X' : Vec F S3x32x16384 .f32) (T : Vec F S32x3x4 .f32) (b : Fin 32) (n : Fin 16384)
    (h : ∀ k : Fin 3, X (ix3 k b n) = X' (ix3 k b n)) : zOf X T (ix2 b n) = zOf X' T (ix2 b n) := by
  have hx : k0_pay3 X (ix2 b n) = k0_pay3 X' (ix2 b n) := by rw [plane_x, plane_x, h]
  have hy : k0_pay4 X (ix2 b n) = k0_pay4 X' (ix2 b n) := by rw [plane_y, plane_y, h]
  have hz : k0_pay5 X (ix2 b n) = k0_pay5 X' (ix2 b n) := by rw [plane_z, plane_z, h]
  simp only [zOf, k0_pay8, mulf, addf, divf, hx, hy, hz]

/-! ## The body's triple -/

variable (m : (ℓ : Loc nD τ sig) → Buf (Elt F) ℓ) (ρ : Dev nD → PrngReg)

abbrev rX : Rect S3x32x16384 := Rect.unit (s := S3x32x16384) ![0, 0, 0] S3x32x16384.size inb_S3x32x16384_S3x32x16384_0_0_0
abbrev rT : Rect S32x3x4 := Rect.unit (s := S32x3x4) ![0, 0, 0] S32x3x4.size inb_S32x3x4_S32x3x4_0_0_0
abbrev rO : Rect S32x16384 := Rect.unit (s := S32x16384) ![0, 0] S32x16384.size inb_S32x16384_S32x16384_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The one whole store into each output buffer, as the pieces the buffer ends with. -/
def outPix (g : BitVec 32) (x0 : Vec F S3x32x16384 .f32) (x1 : Vec F S32x3x4 .f32) : Vec F S32x16384 .i32 :=
  View.canon [⟨rO, pixOf g (View.ld x0 rX) (View.ld x1 rT)⟩]
def outZ (x0 : Vec F S3x32x16384 .f32) (x1 : Vec F S32x3x4 .f32) : Vec F S32x16384 .f32 :=
  View.canon [⟨rO, zOf (View.ld x0 rX) (View.ld x1 rT)⟩]

theorem outPix_eq (g : BitVec 32) (x0 : Vec F S3x32x16384 .f32) (x1 : Vec F S32x3x4 .f32) : outPix g x0 x1 = pixOf g x0 x1 := by
  unfold outPix
  rw [View.canon_unit_zero hz2]
  simp only [View.ld_unit_zero (S := S3x32x16384) hz3, View.ld_unit_zero (S := S32x3x4) hz3]

theorem outZ_eq (x0 : Vec F S3x32x16384 .f32) (x1 : Vec F S32x3x4 .f32) : outZ x0 x1 = zOf x0 x1 := by
  unfold outZ
  rw [View.canon_unit_zero hz2]
  simp only [View.ld_unit_zero (S := S3x32x16384) hz3, View.ld_unit_zero (S := S32x3x4) hz3]

theorem coverI (p0 : Vec F S32x16384 .i32) (y : S32x16384.Idx) :
    ∃ pc ∈ ([⟨rO, p0⟩] : List (View.Piece (Elt F) S32x16384 .i32)), y ∈ pc.1.set :=
  ⟨_, List.mem_singleton.mpr rfl, View.mem_set_unit_zero hz2 inb_S32x16384_S32x16384_0_0 y⟩
theorem coverF (p0 : Vec F S32x16384 .f32) (y : S32x16384.Idx) :
    ∃ pc ∈ ([⟨rO, p0⟩] : List (View.Piece (Elt F) S32x16384 .f32)), y ∈ pc.1.set :=
  ⟨_, List.mem_singleton.mpr rfl, View.mem_set_unit_zero hz2 inb_S32x16384_S32x16384_0_0 y⟩

set_option maxHeartbeats 4000000 in
/-- The body on whole staging memrefs: the input buffers at `x0`, `x1`, the output buffers at anything; it ends with the
    inputs as they were and the outputs at the stored pixel-index and depth blocks. -/
theorem sound_kernel (c : Dev nD) (E : Set ℕ) (i : grid0.Coords)
    (arg1 : Memref sig .tc .vmem S3x32x16384 .f32) (harg1 : arg1.IsWhole) (arg2 : Memref sig .tc .vmem S32x3x4 .f32) (harg2 : arg2.IsWhole)
    (arg3 : Memref sig .tc .vmem S32x16384 .i32) (harg3 : arg3.IsWhole) (arg4 : Memref sig .tc .vmem S32x16384 .f32) (harg4 : arg4.IsWhole)
    (x0 : Vec F S3x32x16384 .f32) (x1 : Vec F S32x3x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outPix (BitVec.ofNat 32 (i 0).val) x0 x1)
            ∗ owns (c : Thread nD τ) arg4 fullShare (outZ x0 x1)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverI _)
  · iexists _; isplitr
    swap; · iexact H3
    ipureintro
    exact View.read_writes_eq_canon _ _ _ (coverF _)

/-! ## The proof data -/

/-- The grid coordinate as the body reads it. -/
def gOf (t : Fin cfg0.N) : BitVec 32 := BitVec.ofNat 32 ((grid0.coords t) 0).val

/-- The point-cloud block at point `t`: the array's columns of the block, and the zero word on the columns of the
    last block that lie past the array's end (which nothing reads into a column inside it). -/
def xblk (c : Dev nD) (t : Fin cfg0.N) : S3x32x16384.Idx → Elt F .f32 :=
  win0_0.fill (grid0.coords t) (fun _ => Scalar.ofBits .f32 0#32) (iblk m c 0 t)

/-- The proof data of the one pipeline on core `c`: the arrays as the region finds them; after the body at point `t` the
    point-cloud buffer at its block, the matrices' buffer at the matrices, the two output buffers at the stored blocks;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => pixOf (gOf t) (xblk m c t) (iblk m c 1 t)
    | ⟨3, _⟩ => zOf (xblk m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = pixOf (gOf t) (xblk m c t) (iblk m c 1 t) := by dsimp only [dats]
theorem after_3 (c : Dev nD) (t : Fin cfg0.N) : (dats m 0 c).after 3 t = zOf (xblk m c t) (iblk m c 1 t) := by dsimp only [dats]

/-! ## What the body finds -/

/-- The point-cloud buffer was just fetched: the block on the columns inside the array, anything past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq m c 0]

/-- The matrices' buffer holds the matrices at every point. -/
theorem before_1 (c : Dev nD) (t : Fin cfg0.N) (d) : (dats m 0 c).before 1 t d = iblk m c 1 t :=
  before0_1_of m (dats m 0 c) (A_eq m c 1) (after_1 m c) t d

/-- The output buffers hold anything: each was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The columns inside the array do not see the filler -/

/-- The three windows over the point axis cut alike: the point-cloud block's planes and rows whole, its columns where the
    output blocks' columns are cut. -/
theorem cuts_agree : ∀ t : Fin cfg0.N,
    win0_0.xsize (grid0.coords t) 0 = 3 ∧ win0_2.xsize (grid0.coords t) 0 = win0_0.xsize (grid0.coords t) 1
      ∧ win0_2.xsize (grid0.coords t) 1 = win0_0.xsize (grid0.coords t) 2
      ∧ win0_3.xsize (grid0.coords t) 0 = win0_0.xsize (grid0.coords t) 1
      ∧ win0_3.xsize (grid0.coords t) 1 = win0_0.xsize (grid0.coords t) 2 :=
  (by decide +kernel : ∀ t : Fin grid0.N, _)

/-- On the part a transfer moves, a filled block does not depend on the filler. -/
theorem fill_agree {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem blocks_agree (c : Dev nD) (t : Fin cfg0.N) (d) (k : Fin 3) (b : Fin 32) (n : Fin 16384)
    (hb : b.val < win0_0.xsize (grid0.coords t) 1) (hn : n.val < win0_0.xsize (grid0.coords t) 2) :
    win0_0.fill (grid0.coords t) d (iblk m c 0 t) (ix3 k b n) = xblk m c t (ix3 k b n) := by
  unfold xblk
  refine fill_agree win0_0 _ _ _ _ _ ((win0_0.moved_iff _ _).mpr fun a => ?_)
  match a with
  | ⟨0, _⟩ =>
    have h3 := (cuts_agree t).1
    show k.val < win0_0.xsize (grid0.coords t) 0
    omega
  | ⟨1, _⟩ => exact hb
  | ⟨2, _⟩ => exact hn

theorem cut_pix (c : Dev nD) (t : Fin cfg0.N) (d) :
    win0_2.cut (grid0.coords t) (pixOf (gOf t) (win0_0.fill (grid0.coords t) d (iblk m c 0 t)) (iblk m c 1 t))
      = win0_2.cut (grid0.coords t) (pixOf (gOf t) (xblk m c t) (iblk m c 1 t)) := by
  funext j
  show pixOf _ _ _ (win0_2.xinj (grid0.coords t) j) = pixOf _ _ _ (win0_2.xinj (grid0.coords t) j)
  rw [eq_ix2 (win0_2.xinj (grid0.coords t) j)]
  refine pixOf_congr _ _ _ _ _ _ fun k => blocks_agree m c t d k _ _ ?_ ?_
  · have := (j 0).isLt; rw [← (cuts_agree t).2.1]; exact this
  · have := (j 1).isLt; rw [← (cuts_agree t).2.2.1]; exact this

theorem cut_z (c : Dev nD) (t : Fin cfg0.N) (d) :
    win0_3.cut (grid0.coords t) (zOf (win0_0.fill (grid0.coords t) d (iblk m c 0 t)) (iblk m c 1 t))
      = win0_3.cut (grid0.coords t) (zOf (xblk m c t) (iblk m c 1 t)) := by
  funext j
  show zOf _ _ (win0_3.xinj (grid0.coords t) j) = zOf _ _ (win0_3.xinj (grid0.coords t) j)
  rw [eq_ix2 (win0_3.xinj (grid0.coords t) j)]
  refine zOf_congr _ _ _ _ _ fun k => blocks_agree m c t d k _ _ ?_ ?_
  · have := (j 0).isLt; rw [← (cuts_agree t).2.2.2.1]; exact this
  · have := (j 1).isLt; rw [← (cuts_agree t).2.2.2.2]; exact this

/-! ## The body obligation -/

theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := F) c Set.univ (grid0.coords t) _ _ _ _ _ _ _ _
    (win0_0.fill (grid0.coords t) d0 (iblk m c 0 t)) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  rw [outPix_eq, outZ_eq]
  isplitl [H0]
  · iexists d0
    rw [after_0]; unfold xblk; rw [Window.cut_fill]
    iexact H0
  isplitl [H1]
  · rw [after_1]; iexact H1
  isplitl [H2]
  · iexists _
    rw [after_2, Window.fill_congr_cut win0_2 _ (cut_pix m c t d0)]
    iexact H2
  · iexists _
    rw [after_3, Window.fill_congr_cut win0_3 _ (cut_z m c t d0)]
    iexact H3

/-! ## The run and the frame -/

set_option backward.isDefEq.respectTransparency.types false in
/-- Every weakly fair execution of @main terminates; at the end every array of the pipeline holds what the library computes
    from the proof data and the result what the host lines after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hmain := hmain m Variants.none) (hA := A_eq m)
    (hΦ := fun _ _ => rfl)

/-- The frame: @main runs to its end, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KIBody.lean ====
/-
  The body of the projection kernel, for any float instance.

  At a grid point the body loads a block `X : [3, 32, 16384]` of the transposed point cloud (planes x, y, z; batch
  `b` on the rows, point `n` on the columns) and the `32` affine matrices `T : [32, 3, 4]`, and stores two
  `[32, 16384]` blocks: the pixel index `pix` and the depth `z`. Each stored entry `(b, n)` is a function of the
  three coordinates `X (·, b, n)` of ONE point and of matrix `T b` alone: every operation between the loads and the
  stores acts entry by entry on `[32, 16384]` matrices, the three planes are read off `X` at `(k, b, n)`, and the
  matrix entries enter as columns constant along `n`. So two blocks `X`, `X'` that agree on column `n` give the
  same stored entries on column `n`: whatever lies in the columns of a block past the array's end never reaches a
  column inside it.
-/
import proofs.«162000_j8263517077853_2_alg».proof.Proof.Gen.KernelIdeal.Skeleton
import proofs.«162000_j8263517077853_2_alg».proof.Proof.Gen.KernelIdeal.Frame
import proofs.«162000_j8263517077853_2_alg».proof.Proof.LibPlanes
import Idealize.ShloMosaic.Lib.Pipeline.Value
import Idealize.ShloMosaic.Lib.Pipeline.FrameBody
import Idealize.ShloMosaic.Lib.Tactic

set_option maxRecDepth 100000

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the body stores -/

/-- The pixel-index block stored at grid coordinate `g`, from the two loaded blocks. -/
def pixOf (g : BitVec 32) (X : Vec F S3x32x16384 .f32) (T : Vec F S32x3x4 .f32) : IVec S32x16384 32 :=
  k0_pay1 g (k0_pay9 (k0_pay6 X T)) (k0_pay10 (k0_pay7 X T)) (k0_pay11 (F := F))

/-- The depth block stored, from the two loaded blocks. -/
def zOf (X : Vec F S3x32x16384 .f32) (T : Vec F S32x3x4 .f32) : FVec F S32x16384 .f32 :=
  k0_pay8 T (k0_pay3 X) (k0_pay4 X) (k0_pay5 X)

/-! ## The three planes of a block, entry by entry -/

theorem plane_x (X : Vec F S3x32x16384 .f32) (b : Fin 32) (n : Fin 16384) :
    k0_pay3 X (ix2 b n) = X (ix3 (0 : Fin 3) b n) := by
  unfold k0_pay3 k0_pay2
  rw [shapeCast_self]
  exact Cert.LibPlanes.plane_apply 0 (by decide) X _ _ b n

theorem plane_y (X : Vec F S3x32x16384 .f32) (b : Fin 32) (n : Fin 16384) :
    k0_pay4 X (ix2 b n) = X (ix3 (1 : Fin 3) b n) := by
  unfold k0_pay4 k0_pay2
  rw [shapeCast_self]
  exact Cert.LibPlanes.plane_apply 1 (by decide) X _ _ b n

theorem plane_z (X : Vec F S3x32x16384 .f32) (b : Fin 32) (n : Fin 16384) :
    k0_pay5 X (ix2 b n) = X (ix3 (2 : Fin 3) b n) := by
  unfold k0_pay5 k0_pay2
  rw [shapeCast_self]
  exact Cert.LibPlanes.plane_apply 2 (by decide) X _ _ b n

/-! ## Column `n` of what is stored depends on column `n` of the block alone -/

theorem pixOf_congr (g : BitVec 32) (X X' : Vec F S3x32x16384 .f32) (T : Vec F S32x3x4 .f32) (b : Fin 32) (n : Fin 16384)
    (h : ∀ k : Fin 3, X (ix3 k b n) = X' (ix3 k b n)) : pixOf g X T (ix2 b n) = pixOf g X' T (ix2 b n) := by
  have hx : k0_pay3 X (ix2 b n) = k0_pay3 X' (ix2 b n) := by rw [plane_x, plane_x, h]
  have hy : k0_pay4 X (ix2 b n) = k0_pay4 X' (ix2 b n) := by rw [plane_y, plane_y, h]
  have hz : k0_pay5 X (ix2 b n) = k0_pay5 X' (ix2 b n) := by rw [plane_z, plane_z, h]
  simp only [pixOf, k0_pay1, k0_pay9, k0_pay10, k0_pay6, k0_pay7, select, cmpi, addi, muli, fptosi, floor, minimumf,
    maximumf, mulf, addf, subf, divf, hx, hy, hz]

theorem zOf_congr (X X' : Vec F S3x32x16384 .f32) (T : Vec F S32x3x4 .f32) (b : Fin 32) (n : Fin 16384)
    (h : ∀ k : Fin 3, X (ix3 k b n) = X' (ix3 k b n)) : zOf X T (ix2 b n) = zOf X' T (ix2 b n) := by
  have hx : k0_pay3 X (ix2 b n) = k0_pay3 X' (ix2 b n) := by rw [plane_x, plane_x, h]
  have hy : k0_pay4 X (ix2 b n) = k0_pay4 X' (ix2 b n) := by rw [plane_y, plane_y, h]
  have hz : k0_pay5 X (ix2 b n) = k0_pay5 X' (ix2 b n) := by rw [plane_z, plane_z, h]
  simp only [zOf, k0_pay8, mulf, addf, divf, hx, hy, hz]

/-! ## The body's triple -/

variable (m : (ℓ : Loc nD τ sig) → Buf (Elt F) ℓ) (ρ : Dev nD → PrngReg)

abbrev rX : Rect S3x32x16384 := Rect.unit (s := S3x32x16384) ![0, 0, 0] S3x32x16384.size inb_S3x32x16384_S3x32x16384_0_0_0
abbrev rT : Rect S32x3x4 := Rect.unit (s := S32x3x4) ![0, 0, 0] S32x3x4.size inb_S32x3x4_S32x3x4_0_0_0
abbrev rO : Rect S32x16384 := Rect.unit (s := S32x16384) ![0, 0] S32x16384.size inb_S32x16384_S32x16384_0_0

theorem hz3 : (![0, 0, 0] : Fin 3 → Nat) = fun _ => 0 := funext fun a => by fin_cases a <;> rfl
theorem hz2 : (![0, 0] : Fin 2 → Nat) = fun _ => 0 := funext fun a => by fin_cases a <;> rfl

/-- The one whole store into each output buffer, as the pieces the buffer ends with. -/
def outPix (g : BitVec 32) (x0 : Vec F S3x32x16384 .f32) (x1 : Vec F S32x3x4 .f32) : Vec F S32x16384 .i32 :=
  View.canon [⟨rO, pixOf g (View.ld x0 rX) (View.ld x1 rT)⟩]
def outZ (x0 : Vec F S3x32x16384 .f32) (x1 : Vec F S32x3x4 .f32) : Vec F S32x16384 .f32 :=
  View.canon [⟨rO, zOf (View.ld x0 rX) (View.ld x1 rT)⟩]

theorem outPix_eq (g : BitVec 32) (x0 : Vec F S3x32x16384 .f32) (x1 : Vec F S32x3x4 .f32) : outPix g x0 x1 = pixOf g x0 x1 := by
  unfold outPix
  rw [View.canon_unit_zero hz2]
  simp only [View.ld_unit_zero (S := S3x32x16384) hz3, View.ld_unit_zero (S := S32x3x4) hz3]

theorem outZ_eq (x0 : Vec F S3x32x16384 .f32) (x1 : Vec F S32x3x4 .f32) : outZ x0 x1 = zOf x0 x1 := by
  unfold outZ
  rw [View.canon_unit_zero hz2]
  simp only [View.ld_unit_zero (S := S3x32x16384) hz3, View.ld_unit_zero (S := S32x3x4) hz3]

theorem coverI (p0 : Vec F S32x16384 .i32) (y : S32x16384.Idx) :
    ∃ pc ∈ ([⟨rO, p0⟩] : List (View.Piece (Elt F) S32x16384 .i32)), y ∈ pc.1.set :=
  ⟨_, List.mem_singleton.mpr rfl, View.mem_set_unit_zero hz2 inb_S32x16384_S32x16384_0_0 y⟩
theorem coverF (p0 : Vec F S32x16384 .f32) (y : S32x16384.Idx) :
    ∃ pc ∈ ([⟨rO, p0⟩] : List (View.Piece (Elt F) S32x16384 .f32)), y ∈ pc.1.set :=
  ⟨_, List.mem_singleton.mpr rfl, View.mem_set_unit_zero hz2 inb_S32x16384_S32x16384_0_0 y⟩

set_option maxHeartbeats 4000000 in
/-- The body on whole staging memrefs: the input buffers at `x0`, `x1`, the output buffers at anything; it ends with the
    inputs as they were and the outputs at the stored pixel-index and depth blocks. -/
theorem sound_kernel (c : Dev nD) (E : Set ℕ) (i : grid0.Coords)
    (arg1 : Memref sig .tc .vmem S3x32x16384 .f32) (harg1 : arg1.IsWhole) (arg2 : Memref sig .tc .vmem S32x3x4 .f32) (harg2 : arg2.IsWhole)
    (arg3 : Memref sig .tc .vmem S32x16384 .i32) (harg3 : arg3.IsWhole) (arg4 : Memref sig .tc .vmem S32x16384 .f32) (harg4 : arg4.IsWhole)
    (x0 : Vec F S3x32x16384 .f32) (x1 : Vec F S32x3x4 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outPix (BitVec.ofNat 32 (i 0).val) x0 x1)
            ∗ owns (c : Thread nD τ) arg4 fullShare (outZ x0 x1)) -∗ K ⟨⟩))
      ⊢ wp frame (wpE (defs₀ (F := F)) Variants.none c none) E (cc0_proj_kernel i arg1 harg1 arg2 harg2 arg3 harg3 arg4 harg4) K := by
  simp only [cc0_proj_kernel_eq_skeleton]; unfold cc0_proj_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverI _)
  · iexists _; isplitr
    swap; · iexact H3
    ipureintro
    exact View.read_writes_eq_canon _ _ _ (coverF _)

/-! ## The proof data -/

/-- The grid coordinate as the body reads it. -/
def gOf (t : Fin cfg0.N) : BitVec 32 := BitVec.ofNat 32 ((grid0.coords t) 0).val

/-- The point-cloud block at point `t`: the array's columns of the block, and the zero word on the columns of the
    last block that lie past the array's end (which nothing reads into a column inside it). -/
def xblk (c : Dev nD) (t : Fin cfg0.N) : S3x32x16384.Idx → Elt F .f32 :=
  win0_0.fill (grid0.coords t) (fun _ => Scalar.ofBits .f32 0#32) (iblk m c 0 t)

/-- The proof data of the one pipeline on core `c`: the arrays as the region finds them; after the body at point `t` the
    point-cloud buffer at its block, the matrices' buffer at the matrices, the two output buffers at the stored blocks;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => iblk m c 1 t
    | ⟨2, _⟩ => pixOf (gOf t) (xblk m c t) (iblk m c 1 t)
    | ⟨3, _⟩ => zOf (xblk m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = pixOf (gOf t) (xblk m c t) (iblk m c 1 t) := by dsimp only [dats]
theorem after_3 (c : Dev nD) (t : Fin cfg0.N) : (dats m 0 c).after 3 t = zOf (xblk m c t) (iblk m c 1 t) := by dsimp only [dats]

/-! ## What the body finds -/

/-- The point-cloud buffer was just fetched: the block on the columns inside the array, anything past them. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq m c 0]

/-- The matrices' buffer holds the matrices at every point. -/
theorem before_1 (c : Dev nD) (t : Fin cfg0.N) (d) : (dats m 0 c).before 1 t d = iblk m c 1 t :=
  before0_1_of m (dats m 0 c) (A_eq m c 1) (after_1 m c) t d

/-- The output buffers hold anything: each was written back at the point before. -/
theorem before_2 (c : Dev nD) (t : Fin cfg0.N) (d) : (dats m 0 c).before 2 t d = d :=
  (dats m 0 c).before_out_reset 2 rfl t (by
    by_cases h : t.val = 0
    · exact .inl h
    · exact .inr ⟨h, flush0_2 _⟩) d
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The columns inside the array do not see the filler -/

/-- The three windows over the point axis cut alike: the point-cloud block's planes and rows whole, its columns where the
    output blocks' columns are cut. -/
theorem cuts_agree : ∀ t : Fin cfg0.N,
    win0_0.xsize (grid0.coords t) 0 = 3 ∧ win0_2.xsize (grid0.coords t) 0 = win0_0.xsize (grid0.coords t) 1
      ∧ win0_2.xsize (grid0.coords t) 1 = win0_0.xsize (grid0.coords t) 2
      ∧ win0_3.xsize (grid0.coords t) 0 = win0_0.xsize (grid0.coords t) 1
      ∧ win0_3.xsize (grid0.coords t) 1 = win0_0.xsize (grid0.coords t) 2 :=
  (by decide +kernel : ∀ t : Fin grid0.N, _)

/-- On the part a transfer moves, a filled block does not depend on the filler. -/
theorem fill_agree {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

theorem blocks_agree (c : Dev nD) (t : Fin cfg0.N) (d) (k : Fin 3) (b : Fin 32) (n : Fin 16384)
    (hb : b.val < win0_0.xsize (grid0.coords t) 1) (hn : n.val < win0_0.xsize (grid0.coords t) 2) :
    win0_0.fill (grid0.coords t) d (iblk m c 0 t) (ix3 k b n) = xblk m c t (ix3 k b n) := by
  unfold xblk
  refine fill_agree win0_0 _ _ _ _ _ ((win0_0.moved_iff _ _).mpr fun a => ?_)
  match a with
  | ⟨0, _⟩ =>
    have h3 := (cuts_agree t).1
    show k.val < win0_0.xsize (grid0.coords t) 0
    omega
  | ⟨1, _⟩ => exact hb
  | ⟨2, _⟩ => exact hn

theorem cut_pix (c : Dev nD) (t : Fin cfg0.N) (d) :
    win0_2.cut (grid0.coords t) (pixOf (gOf t) (win0_0.fill (grid0.coords t) d (iblk m c 0 t)) (iblk m c 1 t))
      = win0_2.cut (grid0.coords t) (pixOf (gOf t) (xblk m c t) (iblk m c 1 t)) := by
  funext j
  show pixOf _ _ _ (win0_2.xinj (grid0.coords t) j) = pixOf _ _ _ (win0_2.xinj (grid0.coords t) j)
  rw [eq_ix2 (win0_2.xinj (grid0.coords t) j)]
  refine pixOf_congr _ _ _ _ _ _ fun k => blocks_agree m c t d k _ _ ?_ ?_
  · have := (j 0).isLt; rw [← (cuts_agree t).2.1]; exact this
  · have := (j 1).isLt; rw [← (cuts_agree t).2.2.1]; exact this

theorem cut_z (c : Dev nD) (t : Fin cfg0.N) (d) :
    win0_3.cut (grid0.coords t) (zOf (win0_0.fill (grid0.coords t) d (iblk m c 0 t)) (iblk m c 1 t))
      = win0_3.cut (grid0.coords t) (zOf (xblk m c t) (iblk m c 1 t)) := by
  funext j
  show zOf _ _ (win0_3.xinj (grid0.coords t) j) = zOf _ _ (win0_3.xinj (grid0.coords t) j)
  rw [eq_ix2 (win0_3.xinj (grid0.coords t) j)]
  refine zOf_congr _ _ _ _ _ fun k => blocks_agree m c t d k _ _ ?_ ?_
  · have := (j 0).isLt; rw [← (cuts_agree t).2.2.2.1]; exact this
  · have := (j 1).isLt; rw [← (cuts_agree t).2.2.2.2]; exact this

/-! ## The body obligation -/

theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := F) c Set.univ (grid0.coords t) _ _ _ _ _ _ _ _
    (win0_0.fill (grid0.coords t) d0 (iblk m c 0 t)) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  rw [outPix_eq, outZ_eq]
  isplitl [H0]
  · iexists d0
    rw [after_0]; unfold xblk; rw [Window.cut_fill]
    iexact H0
  isplitl [H1]
  · rw [after_1]; iexact H1
  isplitl [H2]
  · iexists _
    rw [after_2, Window.fill_congr_cut win0_2 _ (cut_pix m c t d0)]
    iexact H2
  · iexists _
    rw [after_3, Window.fill_congr_cut win0_3 _ (cut_z m c t d0)]
    iexact H3

/-! ## The run and the frame -/

set_option backward.isDefEq.respectTransparency.types false in
/-- Every weakly fair execution of @main terminates; at the end every array of the pipeline holds what the library computes
    from the proof data and the result what the host lines after the region make of them. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hmain := hmain m Variants.none) (hA := A_eq m)
    (hΦ := fun _ _ => rfl)

/-- The frame: @main runs to its end, nothing faults, and the two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.PointMath.lean ====
/-
  One point of the cloud, on the extended reals.

  A point `(x, y, z)` of batch `b` is carried by the batch's affine map, row `r` of which is `(a0, a1, a2, a3)`, to
  `x·a0 + y·a1 + z·a2 + a3`. Halved, the first two images give the pixel: `((u/2 + 1)/2)·1024` and
  `((1 − v/2)/2)·1024`, each clamped into `[0, 1023]` and floored to an integer; the third, halved, is the depth. The
  pixel's flat index in the `32 × 1024 × 1024` map is `row·1024 + column + b·1048576`, as 32-bit words.
-/
import Idealize.ShloMosaic.PureOps.Ideal

noncomputable section

namespace Cert.PointMath

open Idealize.ShloMosaic

/-- One row of the affine map applied to a point. -/
def affine (x y z a0 a1 a2 a3 : Ideal .f32) : Ideal .f32 := ((x * a0 + y * a1) + z * a2) + a3

/-- The words of 2, 1, 1024, 0 and 1023 as the programs spell them. -/
abbrev w2 : Ideal .f32 := Ideal.ofBits .f32 0x40000000#32
abbrev w1 : Ideal .f32 := Ideal.ofBits .f32 0x3F800000#32
abbrev w1024 : Ideal .f32 := Ideal.ofBits .f32 0x44800000#32
abbrev w0 : Ideal .f32 := Ideal.ofBits .f32 0x00000000#32
abbrev w1023 : Ideal .f32 := Ideal.ofBits .f32 0x447FC000#32

/-- The pixel column of a first image `u`, before flooring. -/
def colOf (u : Ideal .f32) : Ideal .f32 := min w1023 (max w0 (Ideal.div (Ideal.div u w2 + w1) w2 * w1024))
/-- The pixel row of a second image `v`, before flooring. -/
def rowOf (v : Ideal .f32) : Ideal .f32 := min w1023 (max w0 (Ideal.div (w1 - Ideal.div v w2) w2 * w1024))

/-- A clamped coordinate floored to a 32-bit word. -/
def cell (p : Ideal .f32) : BitVec 32 := FloatOps.fptosi (F := Ideal) 32 (FloatOps.floor (F := Ideal) p)

/-- The flat pixel index of a point of batch word `b` with first two images `u`, `v`. -/
def pixS (b : BitVec 32) (u v : Ideal .f32) : BitVec 32 :=
  IntOp.addi (IntOp.addi (IntOp.muli (cell (rowOf v)) 1024#32) (cell (colOf u))) (IntOp.muli b 1048576#32)

/-- The depth of a point with third image `w`. -/
def zS (w : Ideal .f32) : Ideal .f32 := Ideal.div w w2

end Cert.PointMath

end
-- ==== Proof.KIValue.lean ====
/-
  What the projection kernel's two output arrays hold, at the ideal instance.

  Entry `(b, n)` of the stored pixel-index block is the flat pixel index of the point in column `n` under batch `b`'s
  affine map, or the out-of-range word where the column's global number `n + g·16384` is not below 200000; entry
  `(b, n)` of the stored depth block is the third image halved. Each output array is the blocks' columns inside it laid
  side by side, so entry `(b, n)` of the arrays is the same function of point `n` of the cloud.
-/
import proofs.«162000_j8263517077853_2_alg».proof.Proof.KIBody
import proofs.«162000_j8263517077853_2_alg».proof.Proof.PointMath
import Idealize.ShloMosaic.Lib.ValueIdx
import Idealize.ShloMosaic.Lib.ValueLayout
import Idealize.ShloMosaic.Lib.DynamicIndex
import Idealize.ShloMosaic.Lib.Affine

set_option maxRecDepth 100000

noncomputable section

namespace Cert.KernelIdeal.KValue

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)
open Cert.PointMath

/-! ## The stored blocks, entry by entry -/

/-- Entry `(u, v)` of every matrix as a column repeated along the points: matrix `b`'s entry at `(b, n)`. -/
theorem tcol (T : Vec Ideal S32x3x4 .f32) (u v : ℕ) (hu : u < 3) (hv : v < 4)
    (hs : S32x3x4.Slices ![0, u, v] S32x1x1) (h1 : S32x1x1.ShapeCasts S32) (h2 : S32.ShapeCasts S32x1)
    (hb : S32x1.Broadcasts S32x16384) (b : Fin 32) (n : Fin 16384) :
    broadcastTo S32x16384 (shapeCast S32x1 (shapeCast S32 (extractStridedSlice S32x1x1 ![0, u, v] T hs) h1) h2) hb (ix2 b n)
      = T (ix3 b (⟨u, hu⟩ : Fin 3) (⟨v, hv⟩ : Fin 4)) :=
  Cert.LibPlanes.entry_column_apply u v hu hv T hs h1 h2 hb b n

/-- The batch number as a column repeated along the points. -/
theorem bcol (h : S32x1.Iotas .tc 32 [0]) (hb : S32x1.Broadcasts S32x16384) (b : Fin 32) (n : Fin 16384) :
    broadcastTo S32x16384 (muli (iota .tc S32x1 32 [0] h) (broadcast S32x1 1048576#32)) hb (ix2 b n)
      = IntOp.muli (BitVec.ofNat 32 b.val) 1048576#32 := by
  rw [Cert.LibColBroadcast.broadcastTo_a1_ab_apply]
  show IntOp.muli (iota .tc S32x1 32 [0] h (ix2 b (0 : Fin 1))) 1048576#32 = _
  rw [iota_single_apply]

/-- The column number along the points. -/
theorem ncol (h : S32x16384.Iotas .tc 32 [1]) (b : Fin 32) (n : Fin 16384) :
    iota .tc S32x16384 32 [1] h (ix2 b n) = BitVec.ofNat 32 n.val := by
  rw [iota_single_apply]

/-- The depth block at `(b, n)`: the third image of point `n` under matrix `b`, halved. -/
theorem zOf_apply (X : Vec Ideal S3x32x16384 .f32) (T : Vec Ideal S32x3x4 .f32) (b : Fin 32) (n : Fin 16384) :
    zOf X T (ix2 b n) = zS (affine (X (ix3 (0 : Fin 3) b n)) (X (ix3 (1 : Fin 3) b n)) (X (ix3 (2 : Fin 3) b n))
      (T (ix3 b (⟨2, by decide⟩ : Fin 3) (⟨0, by decide⟩ : Fin 4))) (T (ix3 b (⟨2, by decide⟩ : Fin 3) (⟨1, by decide⟩ : Fin 4)))
      (T (ix3 b (⟨2, by decide⟩ : Fin 3) (⟨2, by decide⟩ : Fin 4))) (T (ix3 b (⟨2, by decide⟩ : Fin 3) (⟨3, by decide⟩ : Fin 4)))) := by
  simp only [zOf, k0_pay8, mulf, addf, divf, broadcast, plane_x, plane_y, plane_z,
    tcol T 2 0 (by decide) (by decide), tcol T 2 1 (by decide) (by decide), tcol T 2 2 (by decide) (by decide),
    tcol T 2 3 (by decide) (by decide)]
  rfl

/-- The pixel-index block at `(b, n)`: the flat pixel index of point `n` under matrix `b` where the column's global number is
    below 200000, the out-of-range word elsewhere. -/
theorem pixOf_apply (g : BitVec 32) (X : Vec Ideal S3x32x16384 .f32) (T : Vec Ideal S32x3x4 .f32) (b : Fin 32) (n : Fin 16384) :
    pixOf g X T (ix2 b n)
      = Scalar.select (IntOp.cmpi .slt (IntOp.addi (BitVec.ofNat 32 n.val) (Scalar.muli g 16384#32)) 200000#32)
          (pixS (BitVec.ofNat 32 b.val)
            (affine (X (ix3 (0 : Fin 3) b n)) (X (ix3 (1 : Fin 3) b n)) (X (ix3 (2 : Fin 3) b n))
              (T (ix3 b (⟨0, by decide⟩ : Fin 3) (⟨0, by decide⟩ : Fin 4))) (T (ix3 b (⟨0, by decide⟩ : Fin 3) (⟨1, by decide⟩ : Fin 4)))
              (T (ix3 b (⟨0, by decide⟩ : Fin 3) (⟨2, by decide⟩ : Fin 4))) (T (ix3 b (⟨0, by decide⟩ : Fin 3) (⟨3, by decide⟩ : Fin 4))))
            (affine (X (ix3 (0 : Fin 3) b n)) (X (ix3 (1 : Fin 3) b n)) (X (ix3 (2 : Fin 3) b n))
              (T (ix3 b (⟨1, by decide⟩ : Fin 3) (⟨0, by decide⟩ : Fin 4))) (T (ix3 b (⟨1, by decide⟩ : Fin 3) (⟨1, by decide⟩ : Fin 4)))
              (T (ix3 b (⟨1, by decide⟩ : Fin 3) (⟨2, by decide⟩ : Fin 4))) (T (ix3 b (⟨1, by decide⟩ : Fin 3) (⟨3, by decide⟩ : Fin 4)))))
          33554432#32 := by
  simp only [pixOf, k0_pay1, k0_pay9, k0_pay10, k0_pay6, k0_pay7, k0_pay11, select, cmpi, addi, muli, fptosi, floor,
    minimumf, maximumf, mulf, addf, subf, divf, broadcast, plane_x, plane_y, plane_z, bcol, ncol,
    tcol T 0 0 (by decide) (by decide), tcol T 0 1 (by decide) (by decide), tcol T 0 2 (by decide) (by decide),
    tcol T 0 3 (by decide) (by decide), tcol T 1 0 (by decide) (by decide), tcol T 1 1 (by decide) (by decide),
    tcol T 1 2 (by decide) (by decide), tcol T 1 3 (by decide) (by decide)]
  rw [iota_single_apply, Cert.LibColBroadcast.broadcastTo_a1_ab_apply]
  simp only [muli, broadcast]
  rw [iota_single_apply]
  rfl

/-! ## The arrays as the region finds them -/

variable (m : (ℓ : Loc nD τ sig) → Buf (Elt Ideal) ℓ) (ρ : Dev nD → PrngReg)

/-- The cloud as the region finds it: the host has moved the coordinate axis first. -/
theorem V_cloud (c : Dev nD) :
    (V m c main_v0 : S3x32x200000.Idx → Ideal .f32)
      = transpose S3x32x200000 [2, 0, 1] (m ((c : Thread nD τ).loc main_arg0)) transposes_S32x200000x3_S3x32x200000_2_0_1 := by
  show StableHlo.after hostOps0 (fun b => m (c, b)) (Proc.devRef .tc main_v0) = _
  after_results

/-- Coordinate `k` of point `n` of batch `b`. -/
theorem cloud_at (c : Dev nD) (k : Fin 3) (b : Fin 32) (n : Fin 200000) :
    V m c main_v0 (ix3 k b n) = m ((c : Thread nD τ).loc main_arg0) (ix3 b n k) := by
  rw [V_cloud]
  exact transpose_apply _ _ _ _ (ix3 b n k) fun a => by
    match a with
    | ⟨0, _⟩ => rfl
    | ⟨1, _⟩ => rfl
    | ⟨2, _⟩ => rfl

/-- The index maps over the grid: the cloud's and the outputs' blocks move along the points with the grid point, the
    matrices' block stays; the last block's columns stop at the array's end. -/
theorem grid_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = t.val
    ∧ ((grid0.coords t) 0).val = t.val
    ∧ win0_0.xsize (grid0.coords t) (1 : Fin 3) = 32
    ∧ win0_0.xsize (grid0.coords t) (2 : Fin 3) = min 16384 (200000 - t.val * 16384) :=
  (by decide +kernel : ∀ t : Fin grid0.N, _)

/-- Entry `(k, b, n)` of the cloud's block at point `t` is coordinate `k` of point `t·16384 + n` of batch `b`, for a column
    inside the array. -/
theorem xblk_at (c : Dev nD) (t : Fin cfg0.N) (k : Fin 3) (b : Fin 32) (n : Fin 16384) (N : Fin 200000)
    (hN : N.val = t.val * 16384 + n.val) :
    xblk m c t (ix3 k b n) = m ((c : Thread nD τ).loc main_arg0) (ix3 b N k) := by
  obtain ⟨i00, i01, i02, -, -, -, -, -, -, -, -, x1, x2⟩ := grid_facts t
  have hlt := N.isLt
  have hmv : win0_0.moved (grid0.coords t) (ix3 k b n) = true := (win0_0.moved_iff _ _).mpr fun a => by
    match a with
    | ⟨0, _⟩ =>
      have h3 := (cuts_agree t).1
      show k.val < win0_0.xsize (grid0.coords t) (0 : Fin 3)
      omega
    | ⟨1, _⟩ => show b.val < win0_0.xsize (grid0.coords t) (1 : Fin 3); omega
    | ⟨2, _⟩ => show n.val < win0_0.xsize (grid0.coords t) (2 : Fin 3); omega
  unfold xblk Window.fill
  rw [dif_pos hmv, ← cloud_at m c k b N]
  show V m c main_v0 (((cfg0.win 0).blk t).view.emb _) = _
  congr 1
  funext a; apply Fin.ext
  match a with
  | ⟨0, _⟩ => show win0_0.index t (0 : Fin 3) * 3 + 1 * k.val = k.val; omega
  | ⟨1, _⟩ => show win0_0.index t (1 : Fin 3) * 32 + 1 * b.val = b.val; omega
  | ⟨2, _⟩ => show win0_0.index t (2 : Fin 3) * 16384 + 1 * n.val = N.val; omega

/-- The matrices' block is the matrices. -/
theorem tblk_at (c : Dev nD) (t : Fin cfg0.N) (i : S32x3x4.Idx) :
    iblk m c 1 t i = m ((c : Thread nD τ).loc main_arg1) i := by
  obtain ⟨-, -, -, i10, i11, i12, -⟩ := grid_facts t
  show V m c main_arg1 (((cfg0.win 1).blk t).view.emb i) = _
  rw [V_main_arg1]
  congr 1
  funext a; apply Fin.ext
  match a with
  | ⟨0, _⟩ => show win0_1.index t (0 : Fin 3) * 32 + 1 * (i 0).val = (i 0).val; omega
  | ⟨1, _⟩ => show win0_1.index t (1 : Fin 3) * 3 + 1 * (i 1).val = (i 1).val; omega
  | ⟨2, _⟩ => show win0_1.index t (2 : Fin 3) * 4 + 1 * (i 2).val = (i 2).val; omega

/-! ## The two output arrays as functions of the arguments -/

/-- The three coordinates of a point under row `r` of its batch's matrix. -/
def image (A : S32x200000x3.Idx → Ideal .f32) (T : S32x3x4.Idx → Ideal .f32) (r : Fin 3) (b : Fin 32) (N : Fin 200000) : Ideal .f32 :=
  affine (A (ix3 b N (0 : Fin 3))) (A (ix3 b N (1 : Fin 3))) (A (ix3 b N (2 : Fin 3)))
    (T (ix3 b r (⟨0, by decide⟩ : Fin 4))) (T (ix3 b r (⟨1, by decide⟩ : Fin 4))) (T (ix3 b r (⟨2, by decide⟩ : Fin 4)))
    (T (ix3 b r (⟨3, by decide⟩ : Fin 4)))

/-- The pixel-index array. -/
def Gpix (A : S32x200000x3.Idx → Ideal .f32) (T : S32x3x4.Idx → Ideal .f32) : S32x200000.Idx → BitVec 32 := fun i =>
  pixS (BitVec.ofNat 32 (i 0).val) (image A T (⟨0, by decide⟩ : Fin 3) (i 0) (i 1)) (image A T (⟨1, by decide⟩ : Fin 3) (i 0) (i 1))

/-- The depth array. -/
def Gz (A : S32x200000x3.Idx → Ideal .f32) (T : S32x3x4.Idx → Ideal .f32) : S32x200000.Idx → Ideal .f32 := fun i =>
  zS (image A T (⟨2, by decide⟩ : Fin 3) (i 0) (i 1))

/-- A column inside the array passes the body's own test. -/
theorem valid_col (t n : ℕ) (h : t * 16384 + n < 200000) :
    IntOp.cmpi .slt (IntOp.addi (BitVec.ofNat 32 n) (Scalar.muli (BitVec.ofNat 32 t) 16384#32)) 200000#32 = 1#1 := by
  rw [IntOp.cmpi_slt]
  have e : IntOp.addi (BitVec.ofNat 32 n) (Scalar.muli (BitVec.ofNat 32 t) 16384#32) = BitVec.ofNat 32 (n + t * 16384) := by
    show BitVec.ofNat 32 n + BitVec.ofNat 32 t * BitVec.ofNat 32 16384 = _
    rw [BitVec.ofNat_add, BitVec.ofNat_mul]
  rw [e, toInt_ofNat_of_lt (by omega), show (200000#32 : BitVec 32).toInt = 200000 from by decide]
  omega

/-- What the body stores at `(b, n)` at point `t` is the arrays' entry at `(b, t·16384 + n)`, for a column inside the array. -/
theorem stored_pix (c : Dev nD) (t : Fin cfg0.N) (b : Fin 32) (n : Fin 16384) (N : Fin 200000) (hN : N.val = t.val * 16384 + n.val) :
    pixOf (gOf t) (xblk m c t) (iblk m c 1 t) (ix2 b n)
      = Gpix (m ((c : Thread nD τ).loc main_arg0)) (m ((c : Thread nD τ).loc main_arg1)) (ix2 b N) := by
  obtain ⟨-, -, -, -, -, -, -, -, -, -, hg, -, -⟩ := grid_facts t
  have hlt := N.isLt
  rw [pixOf_apply]
  unfold gOf
  rw [hg, valid_col t.val n.val (by omega), select_one,
    xblk_at m c t _ b n N hN, xblk_at m c t _ b n N hN, xblk_at m c t _ b n N hN]
  simp only [tblk_at]
  rfl

theorem stored_z (c : Dev nD) (t : Fin cfg0.N) (b : Fin 32) (n : Fin 16384) (N : Fin 200000) (hN : N.val = t.val * 16384 + n.val) :
    zOf (xblk m c t) (iblk m c 1 t) (ix2 b n)
      = Gz (m ((c : Thread nD τ).loc main_arg0)) (m ((c : Thread nD τ).loc main_arg1)) (ix2 b N) := by
  rw [zOf_apply, xblk_at m c t _ b n N hN, xblk_at m c t _ b n N hN, xblk_at m c t _ b n N hN]
  simp only [tblk_at]
  rfl

/-! ## What each point writes back, and the arrays after the run -/

theorem flushed_pix (c : Dev nD) (t : Fin cfg0.N) :
    (dats m 0 c).flushed 2 t = ((cfg0.win 2).blk t).view.read (Elt Ideal)
      (Gpix (m ((c : Thread nD τ).loc main_arg0)) (m ((c : Thread nD τ).loc main_arg1))) := by
  show (cfg0.win 2).cut (grid0.coords t) ((dats m 0 c).after 2 t) = _
  rw [after_2]
  obtain ⟨-, -, -, -, -, -, i20, i21, -⟩ := grid_facts t
  funext j
  have e0 : (((cfg0.win 2).blk t).view.emb j (0 : Fin 2)).val = (j 0).val := by
    show win0_2.index t (0 : Fin 2) * 32 + 1 * (j 0).val = _; omega
  have e1 : (((cfg0.win 2).blk t).view.emb j (1 : Fin 2)).val = t.val * 16384 + (j 1).val := by
    show win0_2.index t (1 : Fin 2) * 16384 + 1 * (j 1).val = _; omega
  show pixOf (gOf t) (xblk m c t) (iblk m c 1 t) (win0_2.xinj (grid0.coords t) j)
    = Gpix _ _ (((cfg0.win 2).blk t).view.emb j)
  have hb : ((cfg0.win 2).blk t).view.emb j (0 : Fin 2) = win0_2.xinj (grid0.coords t) j (0 : Fin 2) := Fin.ext e0
  rw [eq_ix2 (win0_2.xinj (grid0.coords t) j), eq_ix2 (((cfg0.win 2).blk t).view.emb j), hb]
  exact stored_pix m c t _ _ _ e1

theorem flushed_z (c : Dev nD) (t : Fin cfg0.N) :
    (dats m 0 c).flushed 3 t = ((cfg0.win 3).blk t).view.read (Elt Ideal)
      (Gz (m ((c : Thread nD τ).loc main_arg0)) (m ((c : Thread nD τ).loc main_arg1))) := by
  show (cfg0.win 3).cut (grid0.coords t) ((dats m 0 c).after 3 t) = _
  rw [after_3]
  obtain ⟨-, -, -, -, -, -, -, -, i30, i31, -⟩ := grid_facts t
  funext j
  have e0 : (((cfg0.win 3).blk t).view.emb j (0 : Fin 2)).val = (j 0).val := by
    show win0_3.index t (0 : Fin 2) * 32 + 1 * (j 0).val = _; omega
  have e1 : (((cfg0.win 3).blk t).view.emb j (1 : Fin 2)).val = t.val * 16384 + (j 1).val := by
    show win0_3.index t (1 : Fin 2) * 16384 + 1 * (j 1).val = _; omega
  show zOf (xblk m c t) (iblk m c 1 t) (win0_3.xinj (grid0.coords t) j)
    = Gz _ _ (((cfg0.win 3).blk t).view.emb j)
  have hb : ((cfg0.win 3).blk t).view.emb j (0 : Fin 2) = win0_3.xinj (grid0.coords t) j (0 : Fin 2) := Fin.ext e0
  rw [eq_ix2 (win0_3.xinj (grid0.coords t) j), eq_ix2 (((cfg0.win 3).blk t).view.emb j), hb]
  exact stored_z m c t _ _ _ e1

/-- An index of an output array is in point `t`'s block iff each coordinate is in the block's range inside the array. -/
theorem mem_blk2 (t : Fin cfg0.N) (i : S32x200000.Idx) :
    i ∈ ((cfg0.win 2).blk t).view.set ↔ ∀ a : Fin 2, win0_2.index t a * S32x16384.size a ≤ (i a).val
      ∧ (i a).val < win0_2.index t a * S32x16384.size a + win0_2.xsize (grid0.coords t) a := by
  show i ∈ ((View.whole main_v1_0).slice (win0_2.rect t)).set ↔ _
  rw [View.set_slice_whole, Rect.mem_set_unit]
  exact Iff.rfl
theorem mem_blk3 (t : Fin cfg0.N) (i : S32x200000.Idx) :
    i ∈ ((cfg0.win 3).blk t).view.set ↔ ∀ a : Fin 2, win0_3.index t a * S32x16384.size a ≤ (i a).val
      ∧ (i a).val < win0_3.index t a * S32x16384.size a + win0_3.xsize (grid0.coords t) a := by
  show i ∈ ((View.whole main_v1_1).slice (win0_3.rect t)).set ↔ _
  rw [View.set_slice_whole, Rect.mem_set_unit]
  exact Iff.rfl

/-- Column `n` of an output array lies in the block of point `n / 16384`. -/
theorem cover2 (i : S32x200000.Idx) :
    ∃ t : Fin cfg0.N, (cfg0.win 2).flush t = true ∧ i ∈ ((cfg0.win 2).blk t).view.set := by
  have hi0 : (i 0).val < 32 := (i 0).isLt
  have hi1 : (i 1).val < 200000 := (i 1).isLt
  have hN : cfg0.N = 13 := N_0
  let t : Fin cfg0.N := ⟨(i 1).val / 16384, by rw [hN]; omega⟩
  have ht : t.val = (i 1).val / 16384 := rfl
  refine ⟨t, flush0_2 t, ?_⟩
  rw [mem_blk2]
  obtain ⟨-, -, -, -, -, -, i20, i21, -, -, -, x1, x2⟩ := grid_facts t
  obtain ⟨-, c20, c21, -, -⟩ := cuts_agree t
  intro a
  match a with
  | ⟨0, _⟩ =>
    show win0_2.index t (0 : Fin 2) * 32 ≤ (i 0).val ∧ (i 0).val < win0_2.index t (0 : Fin 2) * 32 + win0_2.xsize (grid0.coords t) (0 : Fin 2)
    omega
  | ⟨1, _⟩ =>
    show win0_2.index t (1 : Fin 2) * 16384 ≤ (i 1).val ∧ (i 1).val < win0_2.index t (1 : Fin 2) * 16384 + win0_2.xsize (grid0.coords t) (1 : Fin 2)
    omega

theorem cover3 (i : S32x200000.Idx) :
    ∃ t : Fin cfg0.N, (cfg0.win 3).flush t = true ∧ i ∈ ((cfg0.win 3).blk t).view.set := by
  have hi0 : (i 0).val < 32 := (i 0).isLt
  have hi1 : (i 1).val < 200000 := (i 1).isLt
  have hN : cfg0.N = 13 := N_0
  let t : Fin cfg0.N := ⟨(i 1).val / 16384, by rw [hN]; omega⟩
  have ht : t.val = (i 1).val / 16384 := rfl
  refine ⟨t, flush0_3 t, ?_⟩
  rw [mem_blk3]
  obtain ⟨-, -, -, -, -, -, -, -, i30, i31, -, x1, x2⟩ := grid_facts t
  obtain ⟨-, -, -, c30, c31⟩ := cuts_agree t
  intro a
  match a with
  | ⟨0, _⟩ =>
    show win0_3.index t (0 : Fin 2) * 32 ≤ (i 0).val ∧ (i 0).val < win0_3.index t (0 : Fin 2) * 32 + win0_3.xsize (grid0.coords t) (0 : Fin 2)
    omega
  | ⟨1, _⟩ =>
    show win0_3.index t (1 : Fin 2) * 16384 ≤ (i 1).val ∧ (i 1).val < win0_3.index t (1 : Fin 2) * 16384 + win0_3.xsize (grid0.coords t) (1 : Fin 2)
    omega

/-- THE OUTPUT ARRAYS after the run. -/
theorem final_pix (c : Dev nD) :
    (dats m 0 c).arrAt 2 cfg0.N = Gpix (m ((c : Thread nD τ).loc main_arg0)) (m ((c : Thread nD τ).loc main_arg1)) :=
  (dats m 0 c).arrAt_eq_of_cover 2 _ (fun t _ => flushed_pix m c t) cover2
theorem final_z (c : Dev nD) :
    (dats m 0 c).arrAt 3 cfg0.N = Gz (m ((c : Thread nD τ).loc main_arg0)) (m ((c : Thread nD τ).loc main_arg1)) :=
  (dats m 0 c).arrAt_eq_of_cover 3 _ (fun t _ => flushed_z m c t) cover3

end Cert.KernelIdeal.KValue

end
-- ==== Proof.TailMath.lean ====
/-
  The host lines both programs end with, as one function of the pixel-index array and the depth array.

  Point `p = b·200000 + n` (the arrays read row by row) is scattered by its pixel index with the maximum: cell `q` of
  the `32·1024·1024` cells ends at the largest point number whose pixel index is `q`, or at the least 32-bit integer
  if there is none. A cell that some point hit takes that point's depth (the point number clamped below at zero and
  wrapped if negative, as an index into the depths); an empty cell takes zero. The cells are then laid out as
  `[32, 1024, 1024]`.
-/
import proofs.«162000_j8263517077853_2_alg».proof.Proof.Gen.ReferenceIdeal
import Idealize.ShloMosaic.PureOps.Ideal

noncomputable section

namespace Cert.TailMath

open Idealize.ShloMosaic Cert.ReferenceIdeal Cert.ReferenceIdeal.Gen

/-- The depth map from the pixel indices and the depths of all points. -/
def tail (pix : IVec S32x200000 32) (z : FVec Ideal S32x200000 .f32) : FVec Ideal S32x1024x1024 .f32 :=
  shapeCast S32x1024x1024
    (select (cmpi .sge (Host.scatter scatter_S33554432_S6400000x1_S6400000_n_0_0_1 IntOp.maxsi (broadcastInDim S33554432 ![] bcast_S_S33554432 (constantI S_ 32 2147483648#32)) (broadcastInDim S6400000x1 ![0] bcast_S6400000_S6400000x1_0 (shapeCast S6400000 pix shapeCasts_S32x200000_S6400000)) (iotaInDim S6400000 32 0)) (broadcastInDim S33554432 ![] bcast_S_S33554432 (constantI S_ 32 0#32)))
      (Host.gather gather_S6400000_S33554432x1_S33554432_n_0_n_n_0_1_1 (shapeCast S6400000 z shapeCasts_S32x200000_S6400000)
        (broadcastInDim S33554432x1 ![0] bcast_S33554432_S33554432x1_0 (select (cmpi .slt (maxsi (broadcastInDim S33554432 ![] bcast_S_S33554432 (id (constantI S_ 32 0#32))) (Host.scatter scatter_S33554432_S6400000x1_S6400000_n_0_0_1 IntOp.maxsi (broadcastInDim S33554432 ![] bcast_S_S33554432 (constantI S_ 32 2147483648#32)) (broadcastInDim S6400000x1 ![0] bcast_S6400000_S6400000x1_0 (shapeCast S6400000 pix shapeCasts_S32x200000_S6400000)) (iotaInDim S6400000 32 0))) (broadcastInDim S33554432 ![] bcast_S_S33554432 (constantI S_ 32 0#32))) (addi (maxsi (broadcastInDim S33554432 ![] bcast_S_S33554432 (id (constantI S_ 32 0#32))) (Host.scatter scatter_S33554432_S6400000x1_S6400000_n_0_0_1 IntOp.maxsi (broadcastInDim S33554432 ![] bcast_S_S33554432 (constantI S_ 32 2147483648#32)) (broadcastInDim S6400000x1 ![0] bcast_S6400000_S6400000x1_0 (shapeCast S6400000 pix shapeCasts_S32x200000_S6400000)) (iotaInDim S6400000 32 0))) (broadcastInDim S33554432 ![] bcast_S_S33554432 (constantI S_ 32 6400000#32))) (maxsi (broadcastInDim S33554432 ![] bcast_S_S33554432 (id (constantI S_ 32 0#32))) (Host.scatter scatter_S33554432_S6400000x1_S6400000_n_0_0_1 IntOp.maxsi (broadcastInDim S33554432 ![] bcast_S_S33554432 (constantI S_ 32 2147483648#32)) (broadcastInDim S6400000x1 ![0] bcast_S6400000_S6400000x1_0 (shapeCast S6400000 pix shapeCasts_S32x200000_S6400000)) (iotaInDim S6400000 32 0))))))
      (broadcastInDim S33554432 ![] bcast_S_S33554432 (id (constant (F := Ideal) S_ .f32 0x00000000#32))))
    shapeCasts_S33554432_S32x1024x1024

end Cert.TailMath

end
-- ==== Proof.TailParts.lean ====
/-
  The pieces of the shared tail function.

  `scat` scatters the point numbers by pixel index with the maximum; `valid` marks the cells some point hit; `safe` clamps
  a cell's winner below at zero; `gidx` wraps a negative winner and stands the winners up as a column of indices;
  `depth` gathers the winners' depths; `out` puts zero in the empty cells and lays the cells out as the depth map. The
  tail is their composition.
-/
import proofs.«162000_j8263517077853_2_alg».proof.Proof.TailMath

noncomputable section

namespace Cert.TailMath

open Idealize.ShloMosaic Cert.ReferenceIdeal Cert.ReferenceIdeal.Gen

def scat (pix : IVec S32x200000 32) : IVec S33554432 32 :=
  Host.scatter scatter_S33554432_S6400000x1_S6400000_n_0_0_1 IntOp.maxsi
    (broadcastInDim S33554432 ![] bcast_S_S33554432 (constantI S_ 32 2147483648#32))
    (broadcastInDim S6400000x1 ![0] bcast_S6400000_S6400000x1_0 (shapeCast S6400000 pix shapeCasts_S32x200000_S6400000))
    (iotaInDim S6400000 32 0)

def valid (w : IVec S33554432 32) : IVec S33554432 1 :=
  cmpi .sge w (broadcastInDim S33554432 ![] bcast_S_S33554432 (constantI S_ 32 0#32))

def safe (c : IVec S_ 32) (w : IVec S33554432 32) : IVec S33554432 32 :=
  maxsi (broadcastInDim S33554432 ![] bcast_S_S33554432 (id c)) w

def gidx (s : IVec S33554432 32) : IVec S33554432x1 32 :=
  broadcastInDim S33554432x1 ![0] bcast_S33554432_S33554432x1_0
    (select (cmpi .slt s (broadcastInDim S33554432 ![] bcast_S_S33554432 (constantI S_ 32 0#32)))
      (addi s (broadcastInDim S33554432 ![] bcast_S_S33554432 (constantI S_ 32 6400000#32))) s)

def flat (z : FVec Ideal S32x200000 .f32) : FVec Ideal S6400000 .f32 := shapeCast S6400000 z shapeCasts_S32x200000_S6400000

def depth (zf : FVec Ideal S6400000 .f32) (g : IVec S33554432x1 32) : FVec Ideal S33554432 .f32 :=
  Host.gather gather_S6400000_S33554432x1_S33554432_n_0_n_n_0_1_1 zf g

def fillEmpty (v : IVec S33554432 1) (d : FVec Ideal S33554432 .f32) (c : FVec Ideal S_ .f32) : FVec Ideal S33554432 .f32 :=
  select v d (broadcastInDim S33554432 ![] bcast_S_S33554432 (id c))

def layOut (o : FVec Ideal S33554432 .f32) : FVec Ideal S32x1024x1024 .f32 :=
  shapeCast S32x1024x1024 o shapeCasts_S33554432_S32x1024x1024

/-- The tail is the composition of its pieces. -/
theorem tail_parts (pix : IVec S32x200000 32) (z : FVec Ideal S32x200000 .f32) :
    tail pix z = layOut (fillEmpty (valid (scat pix))
      (depth (flat z) (gidx (safe (constantI S_ 32 0#32) (scat pix)))) (constant (F := Ideal) S_ .f32 0x00000000#32)) := rfl

end Cert.TailMath

end
-- ==== Proof.KITail.lean ====
/-
  The kernel's result: the host lines after the pallas_call, run on the two output arrays.

  The lines after the region read only the two arrays the region wrote, so the result is the shared tail function of the
  pixel-index array and the depth array, whatever else the memory holds.
-/
import proofs.«162000_j8263517077853_2_alg».proof.Proof.KIValue
import proofs.«162000_j8263517077853_2_alg».proof.Proof.TailParts
import Idealize.ShloMosaic.Lib.StableHlo.Run
import Idealize.ShloMosaic.Lib.Pipeline.FrameSuffix

set_option maxRecDepth 100000

noncomputable section

namespace Cert.KernelIdeal.KTail

open Cert.KernelIdeal Cert.KernelIdeal.Gen Cert.KernelIdeal.Body Cert.KernelIdeal.KValue
open Idealize.ShloMosaic Idealize.ShloMosaic.TcCoe Idealize.ShloMosaic.StableHlo
open Idealize.SL Idealize.SL.Sem
open Idealize.ShloMosaic.Pipeline (Dat Cfg Window)

open Cert.TailMath

/-- Running two stretches of host lines one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-! Each stretch of host lines, run from any contents `W`: what it leaves in the buffers the later stretches read, as the
tail's pieces of what `W` holds in the buffers it reads. -/

theorem s1_v7 (W : Valuation τ sig (Elt Ideal)) :
    StableHlo.after (hostOps1 : List (HloOp τ sig (Elt Ideal))) W (Proc.devRef .tc main_v7) = scat (W (Proc.devRef .tc main_v1_0)) := by
  simp only [hostOps1]
  after_results
  rfl

theorem s1_v9 (W : Valuation τ sig (Elt Ideal)) :
    StableHlo.after (hostOps1 : List (HloOp τ sig (Elt Ideal))) W (Proc.devRef .tc main_v9) = valid (scat (W (Proc.devRef .tc main_v1_0))) := by
  simp only [hostOps1]
  after_results
  rfl

theorem s1_v3 (W : Valuation τ sig (Elt Ideal)) :
    StableHlo.after (hostOps1 : List (HloOp τ sig (Elt Ideal))) W (Proc.devRef .tc main_v3) = flat (W (Proc.devRef .tc main_v1_1)) := by
  simp only [hostOps1]
  after_results
  rfl

theorem s1_c1 (W : Valuation τ sig (Elt Ideal)) :
    StableHlo.after (hostOps1 : List (HloOp τ sig (Elt Ideal))) W (Proc.devRef .tc main_c_1) = constantI S_ 32 0#32 := by
  simp only [hostOps1]
  after_results

theorem s2_v10 (W : Valuation τ sig (Elt Ideal)) :
    StableHlo.after (hostOps1_1 : List (HloOp τ sig (Elt Ideal))) W (Proc.devRef .tc main_v10) = safe (W (Proc.devRef .tc main_c_1)) (W (Proc.devRef .tc main_v7)) := by
  simp only [hostOps1_1]
  after_results
  rfl

theorem s2_v3 (W : Valuation τ sig (Elt Ideal)) :
    StableHlo.after (hostOps1_1 : List (HloOp τ sig (Elt Ideal))) W (Proc.devRef .tc main_v3) = (W (Proc.devRef .tc main_v3)) := by
  simp only [hostOps1_1]
  after_results

theorem s2_v9 (W : Valuation τ sig (Elt Ideal)) :
    StableHlo.after (hostOps1_1 : List (HloOp τ sig (Elt Ideal))) W (Proc.devRef .tc main_v9) = (W (Proc.devRef .tc main_v9)) := by
  simp only [hostOps1_1]
  after_results

theorem s3_v17 (W : Valuation τ sig (Elt Ideal)) :
    StableHlo.after (hostOps1_2 : List (HloOp τ sig (Elt Ideal))) W (Proc.devRef .tc main_v17) = depth (W (Proc.devRef .tc main_v3)) (gidx (W (Proc.devRef .tc main_v10))) := by
  simp only [hostOps1_2]
  after_results
  rfl

theorem s3_cst (W : Valuation τ sig (Elt Ideal)) :
    StableHlo.after (hostOps1_2 : List (HloOp τ sig (Elt Ideal))) W (Proc.devRef .tc main_cst) = constant (F := Ideal) S_ .f32 0x00000000#32 := by
  simp only [hostOps1_2]
  after_results

theorem s3_v9 (W : Valuation τ sig (Elt Ideal)) :
    StableHlo.after (hostOps1_2 : List (HloOp τ sig (Elt Ideal))) W (Proc.devRef .tc main_v9) = (W (Proc.devRef .tc main_v9)) := by
  simp only [hostOps1_2]
  after_results

theorem s4_v18 (W : Valuation τ sig (Elt Ideal)) :
    StableHlo.after (hostOps1_3 : List (HloOp τ sig (Elt Ideal))) W (Proc.devRef .tc main_v18) = fillEmpty (W (Proc.devRef .tc main_v9)) (W (Proc.devRef .tc main_v17)) (W (Proc.devRef .tc main_cst)) := by
  simp only [hostOps1_3]
  after_results
  rfl

theorem s5_v19 (W : Valuation τ sig (Elt Ideal)) :
    StableHlo.after (hostOps1_4 : List (HloOp τ sig (Elt Ideal))) W (Proc.devRef .tc main_v19) = layOut (W (Proc.devRef .tc main_v18)) := by
  simp only [hostOps1_4]
  after_results
  rfl

/-- The host lines after the region, run from any contents `W`, leave the shared tail function of what `W` holds in the two
    output arrays in the result buffer. -/
theorem tail_eval (W : Valuation τ sig (Elt Ideal)) :
    StableHlo.after (List.flatten [hostOps1, hostOps1_1, hostOps1_2, hostOps1_3, hostOps1_4]) W (Proc.devRef .tc main_v19)
      = Cert.TailMath.tail (W (Proc.devRef .tc main_v1_0)) (W (Proc.devRef .tc main_v1_1)) := by
  simp only [List.flatten_cons, List.flatten_nil, List.append_nil]
  rw [after_append, after_append, after_append, after_append,
    s5_v19, s4_v18, s3_v9, s3_v17, s3_cst, s2_v9, s2_v3, s2_v10, s1_v9, s1_v3, s1_c1, s1_v7, tail_parts]

variable (m : (ℓ : Loc nD τ sig) → Buf (Elt Ideal) ℓ) (ρ : Dev nD → PrngReg)

/-- The result buffer after the lines that follow the region: the tail function of the two output arrays' closed forms. -/
theorem result_eq (c : Dev nD) :
    Pipeline.afterTail₀ cfgs (dats m) 0 (V0 m) [hostOps1, hostOps1_1, hostOps1_2, hostOps1_3, hostOps1_4] c main_v19
      = Cert.TailMath.tail (Gpix (m ((c : Thread nD τ).loc main_arg0)) (m ((c : Thread nD τ).loc main_arg1)))
          (Gz (m ((c : Thread nD τ).loc main_arg0)) (m ((c : Thread nD τ).loc main_arg1))) := by
  unfold Pipeline.afterTail₀
  rw [tail_eval]
  have h2 := (Pipeline.withArrays_arr spec0 launch0.win.arr_inj c (V0 m c) (fun w => (dats m 0 c).arrAt w cfg0.N) 2).trans (final_pix m c)
  have h3 := (Pipeline.withArrays_arr spec0 launch0.win.arr_inj c (V0 m c) (fun w => (dats m 0 c).arrAt w cfg0.N) 3).trans (final_z m c)
  exact congrArg₂ Cert.TailMath.tail h2 h3

/-- The idealized kernel's run: every weakly fair execution ends with the result at the tail function of the two closed
    forms and the arguments as they began. -/
theorem run : θ_run defs (onTc (τ := τ) (main (F := Ideal))) ⟨m, fun _ => 0, ρ⟩ (fun r => ∀ c : Dev nD,
      r.2.mem ((c.tc : Thread nD τ).loc main_v19)
        = Cert.TailMath.tail (Gpix (m ((c.tc : Thread nD τ).loc main_arg0)) (m ((c.tc : Thread nD τ).loc main_arg1)))
            (Gz (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KTail

end
-- ==== Proof.RefEval.lean ====
/-
  The reference's run, evaluated.

  The run of the reference ends with every buffer at the fold of its ninety operations over the launch contents. The
  fold is evaluated in five stretches, each over ARBITRARY contents `W` of the buffers, so that every stretch is a
  small statement about a few buffers: the appended column of ones (three operations, the concatenation `main_v1`);
  the arithmetic of one point (fifty-nine operations, from `main_v1` and the affine maps to the pixel index `main_v37`
  and the depth `main_v28`, which are the read-at-an-index module's stages); the flattening of the pixel indices; the
  scatter of the point numbers by pixel index with the maximum; and the lines after the scatter, which read its result
  and the depths. The operations of the inlined calls are first respelt without their typed references: carrying a
  value to a buffer's own type and back is the identity, so the two lists are the same list. Chaining the stretches,
  the result buffer holds `TailMath.tail` of the pixel indices and the depths, and no operation writes an argument.
-/
import proofs.«162000_j8263517077853_2_alg».proof.Proof.RefRun
import proofs.«162000_j8263517077853_2_alg».proof.Proof.RefRead
import proofs.«162000_j8263517077853_2_alg».proof.Proof.TailMath

noncomputable section

namespace Cert.ReferenceIdeal.RefEval

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-- The fold over two lines run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Lines
variable {F : FTy → Type} [FloatOps F]

/-- The appended column: the constant one, its broadcast, the concatenation. -/
abbrev opsA : List (HloOp τ sig (Elt F)) :=
  [ nullary main_cst (constant S_ .f32 0x3F800000#32),
    unary main_cst main_v0 (broadcastInDim S32x200000x1 ![] bcast_S_S32x200000x1 : (⟨S_, .f32⟩ : BufTy).Contents (Elt F) → (⟨S32x200000x1, .f32⟩ : BufTy).Contents (Elt F)),
    binary main_arg0 main_v0 main_v1 ((fun a b => concatenate S32x200000x4 2 [⟨S32x200000x3, a⟩, ⟨S32x200000x1, b⟩] concatenates_S32x200000x3_S32x200000x1_S32x200000x4_d2) : (⟨S32x200000x3, .f32⟩ : BufTy).Contents (Elt F) → (⟨S32x200000x1, .f32⟩ : BufTy).Contents (Elt F) → (⟨S32x200000x4, .f32⟩ : BufTy).Contents (Elt F)) ]

/-- One point's arithmetic, from the points with the appended column and the affine maps. -/
abbrev opsB : List (HloOp τ sig (Elt F)) :=
  [ binary main_v1 main_arg1 main_v2 ((fun l r => Host.dotGeneral dot_S32x200000x4_S32x3x4_S32x200000x3_2_2_1_1_0_0 none l r) : (⟨S32x200000x4, .f32⟩ : BufTy).Contents (Elt F) → (⟨S32x3x4, .f32⟩ : BufTy).Contents (Elt F) → (⟨S32x200000x3, .f32⟩ : BufTy).Contents (Elt F)),
    nullary main_cst_0 (constant S_ .f32 0x40000000#32),
    unary main_cst_0 main_v3 (broadcastInDim S32x200000x3 ![] bcast_S_S32x200000x3 : (⟨S_, .f32⟩ : BufTy).Contents (Elt F) → (⟨S32x200000x3, .f32⟩ : BufTy).Contents (Elt F)),
    binary main_v2 main_v3 main_v4 (Host.divf : (⟨S32x200000x3, .f32⟩ : BufTy).Contents (Elt F) → (⟨S32x200000x3, .f32⟩ : BufTy).Contents (Elt F) → (⟨S32x200000x3, .f32⟩ : BufTy).Contents (Elt F)),
    unary main_v4 main_v5 ((extractStridedSlice S32x200000x1 ![0, 0, 0] · slices_S32x200000x3_S32x200000x1_0_0_0) : (⟨S32x200000x3, .f32⟩ : BufTy).Contents (Elt F) → (⟨S32x200000x1, .f32⟩ : BufTy).Contents (Elt F)),
    reshape main_v5 main_v6 rfl shapeCasts_S32x200000x1_S32x200000,
    nullary main_cst_1 (constant S_ .f32 0x3F800000#32),
    unary main_cst_1 main_v7 (broadcastInDim S32x200000 ![] bcast_S_S32x200000 : (⟨S_, .f32⟩ : BufTy).Contents (Elt F) → (⟨S32x200000, .f32⟩ : BufTy).Contents (Elt F)),
    binary main_v6 main_v7 main_v8 (addf : (⟨S32x200000, .f32⟩ : BufTy).Contents (Elt F) → (⟨S32x200000, .f32⟩ : BufTy).Contents (Elt F) → (⟨S32x200000, .f32⟩ : BufTy).Contents (Elt F)),
    nullary main_cst_2 (constant S_ .f32 0x40000000#32),
    unary main_cst_2 main_v9 (broadcastInDim S32x200000 ![] bcast_S_S32x200000 : (⟨S_, .f32⟩ : BufTy).Contents (Elt F) → (⟨S32x200000, .f32⟩ : BufTy).Contents (Elt F)),
    binary main_v8 main_v9 main_v10 (Host.divf : (⟨S32x200000, .f32⟩ : BufTy).Contents (Elt F) → (⟨S32x200000, .f32⟩ : BufTy).Contents (Elt F) → (⟨S32x200000, .f32⟩ : BufTy).Contents (Elt F)),
    nullary main_cst_3 (constant S_ .f32 0x44800000#32),
    unary main_cst_3 main_v11 (broadcastInDim S32x200000 ![] bcast_S_S32x200000 : (⟨S_, .f32⟩ : BufTy).Contents (Elt F) → (⟨S32x200000, .f32⟩ : BufTy).Contents (Elt F)),
    binary main_v10 main_v11 main_v12 (mulf : (⟨S32x200000, .f32⟩ : BufTy).Contents (Elt F) → (⟨S32x200000, .f32⟩ : BufTy).Contents (Elt F) → (⟨S32x200000, .f32⟩ : BufTy).Contents (Elt F)),
    nullary main_cst_4 (constant S_ .f32 0x00000000#32),
    nullary main_c (constantI S_ 32 1023#32),
    unary main_cst_4 main_call0_v0 (id : (⟨S_, .f32⟩ : BufTy).Contents (Elt F) → (⟨S_, .f32⟩ : BufTy).Contents (Elt F)),
    unary main_call0_v0 main_call0_v1 (broadcastInDim S32x200000 ![] bcast_S_S32x200000 : (⟨S_, .f32⟩ : BufTy).Contents (Elt F) → (⟨S32x200000, .f32⟩ : BufTy).Contents (Elt F)),
    binary main_call0_v1 main_v12 main_call0_v2 (maximumf : (⟨S32x200000, .f32⟩ : BufTy).Contents (Elt F) → (⟨S32x200000, .f32⟩ : BufTy).Contents (Elt F) → (⟨S32x200000, .f32⟩ : BufTy).Contents (Elt F)),
    unary main_c main_call0_v3 (sitofp .f32 : (⟨S_, .i32⟩ : BufTy).Contents (Elt F) → (⟨S_, .f32⟩ : BufTy).Contents (Elt F)),
    unary main_call0_v3 main_call0_v4 (broadcastInDim S32x200000 ![] bcast_S_S32x200000 : (⟨S_, .f32⟩ : BufTy).Contents (Elt F) → (⟨S32x200000, .f32⟩ : BufTy).Contents (Elt F)),
    binary main_call0_v4 main_call0_v2 main_v13 (minimumf : (⟨S32x200000, .f32⟩ : BufTy).Contents (Elt F) → (⟨S32x200000, .f32⟩ : BufTy).Contents (Elt F) → (⟨S32x200000, .f32⟩ : BufTy).Contents (Elt F)),
    unary main_v4 main_v14 ((extractStridedSlice S32x200000x1 ![0, 0, 1] · slices_S32x200000x3_S32x200000x1_0_0_1) : (⟨S32x200000x3, .f32⟩ : BufTy).Contents (Elt F) → (⟨S32x200000x1, .f32⟩ : BufTy).Contents (Elt F)),
    reshape main_v14 main_v15 rfl shapeCasts_S32x200000x1_S32x200000,
    nullary main_cst_5 (constant S_ .f32 0x3F800000#32),
    unary main_cst_5 main_v16 (broadcastInDim S32x200000 ![] bcast_S_S32x200000 : (⟨S_, .f32⟩ : BufTy).Contents (Elt F) → (⟨S32x200000, .f32⟩ : BufTy).Contents (Elt F)),
    binary main_v16 main_v15 main_v17 (subf : (⟨S32x200000, .f32⟩ : BufTy).Contents (Elt F) → (⟨S32x200000, .f32⟩ : BufTy).Contents (Elt F) → (⟨S32x200000, .f32⟩ : BufTy).Contents (Elt F)),
    nullary main_cst_6 (constant S_ .f32 0x40000000#32),
    unary main_cst_6 main_v18 (broadcastInDim S32x200000 ![] bcast_S_S32x200000 : (⟨S_, .f32⟩ : BufTy).Contents (Elt F) → (⟨S32x200000, .f32⟩ : BufTy).Contents (Elt F)),
    binary main_v17 main_v18 main_v19 (Host.divf : (⟨S32x200000, .f32⟩ : BufTy).Contents (Elt F) → (⟨S32x200000, .f32⟩ : BufTy).Contents (Elt F) → (⟨S32x200000, .f32⟩ : BufTy).Contents (Elt F)),
    nullary main_cst_7 (constant S_ .f32 0x44800000#32),
    unary main_cst_7 main_v20 (broadcastInDim S32x200000 ![] bcast_S_S32x200000 : (⟨S_, .f32⟩ : BufTy).Contents (Elt F) → (⟨S32x200000, .f32⟩ : BufTy).Contents (Elt F)),
    binary main_v19 main_v20 main_v21 (mulf : (⟨S32x200000, .f32⟩ : BufTy).Contents (Elt F) → (⟨S32x200000, .f32⟩ : BufTy).Contents (Elt F) → (⟨S32x200000, .f32⟩ : BufTy).Contents (Elt F)),
    nullary main_cst_8 (constant S_ .f32 0x00000000#32),
    nullary main_c_9 (constantI S_ 32 1023#32),
    unary main_cst_8 main_call1_v0 (id : (⟨S_, .f32⟩ : BufTy).Contents (Elt F) → (⟨S_, .f32⟩ : BufTy).Contents (Elt F)),
    unary main_call1_v0 main_call1_v1 (broadcastInDim S32x200000 ![] bcast_S_S32x200000 : (⟨S_, .f32⟩ : BufTy).Contents (Elt F) → (⟨S32x200000, .f32⟩ : BufTy).Contents (Elt F)),
    binary main_call1_v1 main_v21 main_call1_v2 (maximumf : (⟨S32x200000, .f32⟩ : BufTy).Contents (Elt F) → (⟨S32x200000, .f32⟩ : BufTy).Contents (Elt F) → (⟨S32x200000, .f32⟩ : BufTy).Contents (Elt F)),
    unary main_c_9 main_call1_v3 (sitofp .f32 : (⟨S_, .i32⟩ : BufTy).Contents (Elt F) → (⟨S_, .f32⟩ : BufTy).Contents (Elt F)),
    unary main_call1_v3 main_call1_v4 (broadcastInDim S32x200000 ![] bcast_S_S32x200000 : (⟨S_, .f32⟩ : BufTy).Contents (Elt F) → (⟨S32x200000, .f32⟩ : BufTy).Contents (Elt F)),
    binary main_call1_v4 main_call1_v2 main_v22 (minimumf : (⟨S32x200000, .f32⟩ : BufTy).Contents (Elt F) → (⟨S32x200000, .f32⟩ : BufTy).Contents (Elt F) → (⟨S32x200000, .f32⟩ : BufTy).Contents (Elt F)),
    unary main_v13 main_v23 (Host.floor : (⟨S32x200000, .f32⟩ : BufTy).Contents (Elt F) → (⟨S32x200000, .f32⟩ : BufTy).Contents (Elt F)),
    unary main_v23 main_v24 (fptosi 32 : (⟨S32x200000, .f32⟩ : BufTy).Contents (Elt F) → (⟨S32x200000, .i32⟩ : BufTy).Contents (Elt F)),
    unary main_v22 main_v25 (Host.floor : (⟨S32x200000, .f32⟩ : BufTy).Contents (Elt F) → (⟨S32x200000, .f32⟩ : BufTy).Contents (Elt F)),
    unary main_v25 main_v26 (fptosi 32 : (⟨S32x200000, .f32⟩ : BufTy).Contents (Elt F) → (⟨S32x200000, .i32⟩ : BufTy).Contents (Elt F)),
    unary main_v4 main_v27 ((extractStridedSlice S32x200000x1 ![0, 0, 2] · slices_S32x200000x3_S32x200000x1_0_0_2) : (⟨S32x200000x3, .f32⟩ : BufTy).Contents (Elt F) → (⟨S32x200000x1, .f32⟩ : BufTy).Contents (Elt F)),
    reshape main_v27 main_v28 rfl shapeCasts_S32x200000x1_S32x200000,
    nullary main_v29 (iotaInDim S32 32 0),
    unary main_v29 main_v30 (broadcastInDim S32x1 ![0] bcast_S32_S32x1_0 : (⟨S32, .i32⟩ : BufTy).Contents (Elt F) → (⟨S32x1, .i32⟩ : BufTy).Contents (Elt F)),
    nullary main_c_10 (constantI S_ 32 1048576#32),
    unary main_c_10 main_v31 (broadcastInDim S32x1 ![] bcast_S_S32x1 : (⟨S_, .i32⟩ : BufTy).Contents (Elt F) → (⟨S32x1, .i32⟩ : BufTy).Contents (Elt F)),
    binary main_v30 main_v31 main_v32 (muli : (⟨S32x1, .i32⟩ : BufTy).Contents (Elt F) → (⟨S32x1, .i32⟩ : BufTy).Contents (Elt F) → (⟨S32x1, .i32⟩ : BufTy).Contents (Elt F)),
    nullary main_c_11 (constantI S_ 32 1024#32),
    unary main_c_11 main_v33 (broadcastInDim S32x200000 ![] bcast_S_S32x200000 : (⟨S_, .i32⟩ : BufTy).Contents (Elt F) → (⟨S32x200000, .i32⟩ : BufTy).Contents (Elt F)),
    binary main_v26 main_v33 main_v34 (muli : (⟨S32x200000, .i32⟩ : BufTy).Contents (Elt F) → (⟨S32x200000, .i32⟩ : BufTy).Contents (Elt F) → (⟨S32x200000, .i32⟩ : BufTy).Contents (Elt F)),
    unary main_v32 main_v35 (broadcastInDim S32x200000 ![0, 1] bcast_S32x1_S32x200000_0_1 : (⟨S32x1, .i32⟩ : BufTy).Contents (Elt F) → (⟨S32x200000, .i32⟩ : BufTy).Contents (Elt F)),
    binary main_v35 main_v34 main_v36 (addi : (⟨S32x200000, .i32⟩ : BufTy).Contents (Elt F) → (⟨S32x200000, .i32⟩ : BufTy).Contents (Elt F) → (⟨S32x200000, .i32⟩ : BufTy).Contents (Elt F)),
    binary main_v36 main_v24 main_v37 (addi : (⟨S32x200000, .i32⟩ : BufTy).Contents (Elt F) → (⟨S32x200000, .i32⟩ : BufTy).Contents (Elt F) → (⟨S32x200000, .i32⟩ : BufTy).Contents (Elt F)) ]

/-- The pixel indices flattened. -/
abbrev opsC0 : List (HloOp τ sig (Elt F)) :=
  [ reshape main_v37 main_v38 rfl shapeCasts_S32x200000_S6400000 ]

/-- The scatter of the point numbers. -/
abbrev opsC1 : List (HloOp τ sig (Elt F)) :=
  [ nullary main_v39 (iotaInDim S6400000 32 0),
    nullary main_c_12 (constantI S_ 32 2147483648#32),
    unary main_c_12 main_v40 (broadcastInDim S33554432 ![] bcast_S_S33554432 : (⟨S_, .i32⟩ : BufTy).Contents (Elt F) → (⟨S33554432, .i32⟩ : BufTy).Contents (Elt F)),
    unary main_v38 main_v41 (broadcastInDim S6400000x1 ![0] bcast_S6400000_S6400000x1_0 : (⟨S6400000, .i32⟩ : BufTy).Contents (Elt F) → (⟨S6400000x1, .i32⟩ : BufTy).Contents (Elt F)),
    ternary main_v40 main_v41 main_v39 main_v42 ((fun x i u => Host.scatter scatter_S33554432_S6400000x1_S6400000_n_0_0_1 IntOp.maxsi x i u) : (⟨S33554432, .i32⟩ : BufTy).Contents (Elt F) → (⟨S6400000x1, .i32⟩ : BufTy).Contents (Elt F) → (⟨S6400000, .i32⟩ : BufTy).Contents (Elt F) → (⟨S33554432, .i32⟩ : BufTy).Contents (Elt F)) ]

/-- The lines after the scatter. -/
abbrev opsC2 : List (HloOp τ sig (Elt F)) :=
  [ nullary main_c_13 (constantI S_ 32 0#32),
    unary main_c_13 main_v43 (broadcastInDim S33554432 ![] bcast_S_S33554432 : (⟨S_, .i32⟩ : BufTy).Contents (Elt F) → (⟨S33554432, .i32⟩ : BufTy).Contents (Elt F)),
    binary main_v42 main_v43 main_v44 (cmpi .sge : (⟨S33554432, .i32⟩ : BufTy).Contents (Elt F) → (⟨S33554432, .i32⟩ : BufTy).Contents (Elt F) → (⟨S33554432, .i1⟩ : BufTy).Contents (Elt F)),
    nullary main_c_14 (constantI S_ 32 0#32),
    unary main_c_14 main_call2_v0 (id : (⟨S_, .i32⟩ : BufTy).Contents (Elt F) → (⟨S_, .i32⟩ : BufTy).Contents (Elt F)),
    unary main_call2_v0 main_call2_v1 (broadcastInDim S33554432 ![] bcast_S_S33554432 : (⟨S_, .i32⟩ : BufTy).Contents (Elt F) → (⟨S33554432, .i32⟩ : BufTy).Contents (Elt F)),
    binary main_call2_v1 main_v42 main_v45 (maxsi : (⟨S33554432, .i32⟩ : BufTy).Contents (Elt F) → (⟨S33554432, .i32⟩ : BufTy).Contents (Elt F) → (⟨S33554432, .i32⟩ : BufTy).Contents (Elt F)),
    reshape main_v28 main_v46 rfl shapeCasts_S32x200000_S6400000,
    nullary main_c_15 (constantI S_ 32 0#32),
    unary main_c_15 main_v47 (broadcastInDim S33554432 ![] bcast_S_S33554432 : (⟨S_, .i32⟩ : BufTy).Contents (Elt F) → (⟨S33554432, .i32⟩ : BufTy).Contents (Elt F)),
    binary main_v45 main_v47 main_v48 (cmpi .slt : (⟨S33554432, .i32⟩ : BufTy).Contents (Elt F) → (⟨S33554432, .i32⟩ : BufTy).Contents (Elt F) → (⟨S33554432, .i1⟩ : BufTy).Contents (Elt F)),
    nullary main_c_16 (constantI S_ 32 6400000#32),
    unary main_c_16 main_v49 (broadcastInDim S33554432 ![] bcast_S_S33554432 : (⟨S_, .i32⟩ : BufTy).Contents (Elt F) → (⟨S33554432, .i32⟩ : BufTy).Contents (Elt F)),
    binary main_v45 main_v49 main_v50 (addi : (⟨S33554432, .i32⟩ : BufTy).Contents (Elt F) → (⟨S33554432, .i32⟩ : BufTy).Contents (Elt F) → (⟨S33554432, .i32⟩ : BufTy).Contents (Elt F)),
    ternary main_v48 main_v50 main_v45 main_v51 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v51 main_v52 (broadcastInDim S33554432x1 ![0] bcast_S33554432_S33554432x1_0 : (⟨S33554432, .i32⟩ : BufTy).Contents (Elt F) → (⟨S33554432x1, .i32⟩ : BufTy).Contents (Elt F)),
    binary main_v46 main_v52 main_v53 ((fun x i => Host.gather gather_S6400000_S33554432x1_S33554432_n_0_n_n_0_1_1 x i) : (⟨S6400000, .f32⟩ : BufTy).Contents (Elt F) → (⟨S33554432x1, .i32⟩ : BufTy).Contents (Elt F) → (⟨S33554432, .f32⟩ : BufTy).Contents (Elt F)),
    nullary main_cst_17 (constant S_ .f32 0x00000000#32),
    unary main_cst_17 main_call3_v0 (id : (⟨S_, .f32⟩ : BufTy).Contents (Elt F) → (⟨S_, .f32⟩ : BufTy).Contents (Elt F)),
    unary main_call3_v0 main_call3_v1 (broadcastInDim S33554432 ![] bcast_S_S33554432 : (⟨S_, .f32⟩ : BufTy).Contents (Elt F) → (⟨S33554432, .f32⟩ : BufTy).Contents (Elt F)),
    ternary main_v44 main_v53 main_call3_v1 main_v54 (select : (⟨S33554432, .i1⟩ : BufTy).Contents (Elt F) → (⟨S33554432, .f32⟩ : BufTy).Contents (Elt F) → (⟨S33554432, .f32⟩ : BufTy).Contents (Elt F) → (⟨S33554432, .f32⟩ : BufTy).Contents (Elt F)),
    reshape main_v54 main_v55 rfl shapeCasts_S33554432_S32x1024x1024 ]

set_option maxRecDepth 8192 in
set_option maxHeartbeats 4000000 in
/-- The reference's operations are these five lines in a row. -/
theorem ops_split : (ops : List (HloOp τ sig (Elt F))) = opsA ++ (opsB ++ (opsC0 ++ (opsC1 ++ opsC2))) := rfl

end Lines

/-- The lines after the scatter as a function of the scatter's result and the depths. -/
def tailTop (win : IVec S33554432 32) (z : FVec Ideal S32x200000 .f32) : FVec Ideal S32x1024x1024 .f32 :=
  shapeCast S32x1024x1024
    (select (cmpi .sge win (broadcastInDim S33554432 ![] bcast_S_S33554432 (constantI S_ 32 0#32)))
      (Host.gather gather_S6400000_S33554432x1_S33554432_n_0_n_n_0_1_1 (shapeCast S6400000 z shapeCasts_S32x200000_S6400000)
        (broadcastInDim S33554432x1 ![0] bcast_S33554432_S33554432x1_0 (select (cmpi .slt (maxsi (broadcastInDim S33554432 ![] bcast_S_S33554432 (id (constantI S_ 32 0#32))) win) (broadcastInDim S33554432 ![] bcast_S_S33554432 (constantI S_ 32 0#32))) (addi (maxsi (broadcastInDim S33554432 ![] bcast_S_S33554432 (id (constantI S_ 32 0#32))) win) (broadcastInDim S33554432 ![] bcast_S_S33554432 (constantI S_ 32 6400000#32))) (maxsi (broadcastInDim S33554432 ![] bcast_S_S33554432 (id (constantI S_ 32 0#32))) win))))
      (broadcastInDim S33554432 ![] bcast_S_S33554432 (id (constant (F := Ideal) S_ .f32 0x00000000#32))))
    shapeCasts_S33554432_S32x1024x1024

/-- The scatter of the point numbers by the flattened pixel indices. -/
def winner (pixFlat : IVec S6400000 32) : IVec S33554432 32 :=
  Host.scatter scatter_S33554432_S6400000x1_S6400000_n_0_0_1 IntOp.maxsi (broadcastInDim S33554432 ![] bcast_S_S33554432 (constantI S_ 32 2147483648#32)) (broadcastInDim S6400000x1 ![0] bcast_S6400000_S6400000x1_0 pixFlat) (iotaInDim S6400000 32 0)

/-- The tail is the lines after the scatter at the scatter of the flattened pixel indices. -/
theorem tail_eq (pix : IVec S32x200000 32) (z : FVec Ideal S32x200000 .f32) :
    tailTop (winner (shapeCast S6400000 pix shapeCasts_S32x200000_S6400000)) z = Cert.TailMath.tail pix z := rfl

/-! ## The stretches -/

theorem evalA_v1 (V : Valuation τ sig (Elt Ideal)) : after (opsA (F := Ideal)) V (Proc.devRef .tc main_v1) = val_main_v1 (F := Ideal) (V (Proc.devRef .tc main_arg0)) := by
  after_results
  rfl

theorem evalA_arg1 (V : Valuation τ sig (Elt Ideal)) : after (opsA (F := Ideal)) V (Proc.devRef .tc main_arg1) = V (Proc.devRef .tc main_arg1) := by
  after_results_simp

set_option maxRecDepth 8192 in
set_option maxHeartbeats 4000000 in
theorem evalB37 (W : Valuation τ sig (Elt Ideal)) (x0 : (⟨S32x200000x3, .f32⟩ : BufTy).Contents (Elt Ideal)) (h : W (Proc.devRef .tc main_v1) = val_main_v1 (F := Ideal) x0) :
    after (opsB (F := Ideal)) W (Proc.devRef .tc main_v37) = val_main_v37 (F := Ideal) x0 (W (Proc.devRef .tc main_arg1)) := by
  after_results_simp
  rw [h]
  simp only [val_main_v2, val_main_cst_0, val_main_v3, val_main_v4, val_main_v5, val_main_v6, val_main_cst_1, val_main_v7, val_main_v8, val_main_cst_2, val_main_v9, val_main_v10, val_main_cst_3, val_main_v11, val_main_v12, val_main_cst_4, val_main_c, val_main_call0_v0, val_main_call0_v1, val_main_call0_v2, val_main_call0_v3, val_main_call0_v4, val_main_v13, val_main_v14, val_main_v15, val_main_cst_5, val_main_v16, val_main_v17, val_main_cst_6, val_main_v18, val_main_v19, val_main_cst_7, val_main_v20, val_main_v21, val_main_cst_8, val_main_c_9, val_main_call1_v0, val_main_call1_v1, val_main_call1_v2, val_main_call1_v3, val_main_call1_v4, val_main_v22, val_main_v23, val_main_v24, val_main_v25, val_main_v26, val_main_v27, val_main_v28, val_main_v29, val_main_v30, val_main_c_10, val_main_v31, val_main_v32, val_main_c_11, val_main_v33, val_main_v34, val_main_v35, val_main_v36, val_main_v37]
  rfl

set_option maxRecDepth 8192 in
set_option maxHeartbeats 4000000 in
theorem evalB28 (W : Valuation τ sig (Elt Ideal)) (x0 : (⟨S32x200000x3, .f32⟩ : BufTy).Contents (Elt Ideal)) (h : W (Proc.devRef .tc main_v1) = val_main_v1 (F := Ideal) x0) :
    after (opsB (F := Ideal)) W (Proc.devRef .tc main_v28) = val_main_v28 (F := Ideal) x0 (W (Proc.devRef .tc main_arg1)) := by
  after_results_simp
  rw [h]
  simp only [val_main_v2, val_main_cst_0, val_main_v3, val_main_v4, val_main_v5, val_main_v6, val_main_cst_1, val_main_v7, val_main_v8, val_main_cst_2, val_main_v9, val_main_v10, val_main_cst_3, val_main_v11, val_main_v12, val_main_cst_4, val_main_c, val_main_call0_v0, val_main_call0_v1, val_main_call0_v2, val_main_call0_v3, val_main_call0_v4, val_main_v13, val_main_v14, val_main_v15, val_main_cst_5, val_main_v16, val_main_v17, val_main_cst_6, val_main_v18, val_main_v19, val_main_cst_7, val_main_v20, val_main_v21, val_main_cst_8, val_main_c_9, val_main_call1_v0, val_main_call1_v1, val_main_call1_v2, val_main_call1_v3, val_main_call1_v4, val_main_v22, val_main_v23, val_main_v24, val_main_v25, val_main_v26, val_main_v27, val_main_v28]
  rfl

theorem evalC0 (W : Valuation τ sig (Elt Ideal)) :
    after (opsC0 (F := Ideal)) W (Proc.devRef .tc main_v38) = shapeCast S6400000 (W (Proc.devRef .tc main_v37)) shapeCasts_S32x200000_S6400000 := by
  after_results_simp
  rfl

theorem frameC0 (W : Valuation τ sig (Elt Ideal)) : after (opsC0 (F := Ideal)) W (Proc.devRef .tc main_v28) = W (Proc.devRef .tc main_v28) := by
  after_results_simp

theorem evalC1 (W : Valuation τ sig (Elt Ideal)) : after (opsC1 (F := Ideal)) W (Proc.devRef .tc main_v42) = winner (W (Proc.devRef .tc main_v38)) := by
  after_results_simp
  rfl

theorem frameC1 (W : Valuation τ sig (Elt Ideal)) : after (opsC1 (F := Ideal)) W (Proc.devRef .tc main_v28) = W (Proc.devRef .tc main_v28) := by
  after_results_simp

set_option maxRecDepth 8192 in
set_option maxHeartbeats 4000000 in
theorem evalC2 (W : Valuation τ sig (Elt Ideal)) :
    after (opsC2 (F := Ideal)) W (Proc.devRef .tc main_v55) = tailTop (W (Proc.devRef .tc main_v42)) (W (Proc.devRef .tc main_v28)) := by
  after_results_simp
  rfl

/-! ## The whole line -/

set_option maxRecDepth 8192 in
/-- The result buffer after the reference's operations, from any contents. -/
theorem eval_v55 (V : Valuation τ sig (Elt Ideal)) :
    after (ops (F := Ideal)) V (Proc.devRef .tc main_v55)
      = Cert.TailMath.tail (val_main_v37 (F := Ideal) (V (Proc.devRef .tc main_arg0)) (V (Proc.devRef .tc main_arg1)))
          (val_main_v28 (F := Ideal) (V (Proc.devRef .tc main_arg0)) (V (Proc.devRef .tc main_arg1))) := by
  rw [ops_split, after_append, after_append, after_append, after_append,
    evalC2, evalC1, frameC1, evalC0, frameC0,
    evalB37 _ (V (Proc.devRef .tc main_arg0)) (evalA_v1 V), evalB28 _ (V (Proc.devRef .tc main_arg0)) (evalA_v1 V), evalA_arg1]
  exact tail_eq _ _

set_option maxRecDepth 8192 in
set_option maxHeartbeats 4000000 in
theorem frame_arg0 (V : Valuation τ sig (Elt Ideal)) : after (ops (F := Ideal)) V (Proc.devRef .tc main_arg0) = V (Proc.devRef .tc main_arg0) := by
  after_results_simp

set_option maxRecDepth 8192 in
set_option maxHeartbeats 4000000 in
theorem frame_arg1 (V : Valuation τ sig (Elt Ideal)) : after (ops (F := Ideal)) V (Proc.devRef .tc main_arg1) = V (Proc.devRef .tc main_arg1) := by
  after_results_simp

/-- On every device, from any memory with zero counters: every weakly fair execution of the reference terminates with
    the result at the tail of the pixel indices and depths of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
          = Cert.TailMath.tail
              (val_main_v37 (F := Ideal) (m ((c.tc : Thread nD τ).loc main_arg0)) (m ((c.tc : Thread nD τ).loc main_arg1)))
              (val_main_v28 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v55).trans (eval_v55 (launchContents m c)),
      (h c main_arg0).trans (frame_arg0 (launchContents m c)),
      (h c main_arg1).trans (frame_arg1 (launchContents m c))⟩)
    (ValueP.run (F := Ideal) m ρ)

end Cert.ReferenceIdeal.RefEval

end
-- ==== Proof.RefPoint.lean ====
/-
  The reference's pixel index and depth of one point.

  The reference appends a column of ones to the points and contracts with the batch's affine map: at point `n` of
  batch `b` and row `r` of the map the contracted sum over the four columns is its four terms,
  `x·a0 + y·a1 + z·a2 + 1·a3`, the affine image of the point. Every image is halved. The first image gives the pixel
  column and the second the pixel row, each clamped into `[0, 1023]` (the reference's upper bound is the integer
  `1023` converted to a float, the real `1023`) and floored to an integer; the third, halved, is the depth. The
  reference sums the flat index as `(b·1048576 + row·1024) + column`; 32-bit addition is commutative and
  associative, so this is `(row·1024 + column) + b·1048576`.
-/
import proofs.«162000_j8263517077853_2_alg».proof.Proof.RefRead
import proofs.«162000_j8263517077853_2_alg».proof.Proof.PointMath

noncomputable section

namespace Cert.ReferenceIdeal.RefPoint

open Cert.ReferenceIdeal Cert.ReferenceIdeal.Gen Cert.ReferenceIdeal.ReadP Idealize.ShloMosaic Idealize.ShloMosaic.ValueIdx Cert.PointMath
open scoped BigOperators

/-- The reference's flat pixel index of every point, as a function of the points and the affine maps. -/
abbrev pixR (x0 : (⟨S32x200000x3, .f32⟩ : BufTy).Contents (Elt Ideal)) (x1 : (⟨S32x3x4, .f32⟩ : BufTy).Contents (Elt Ideal)) : (⟨S32x200000, .i32⟩ : BufTy).Contents (Elt Ideal) :=
  val_main_v37 (F := Ideal) x0 x1
/-- The reference's depth of every point, as a function of the points and the affine maps. -/
abbrev zR (x0 : (⟨S32x200000x3, .f32⟩ : BufTy).Contents (Elt Ideal)) (x1 : (⟨S32x3x4, .f32⟩ : BufTy).Contents (Elt Ideal)) : (⟨S32x200000, .f32⟩ : BufTy).Contents (Elt Ideal) :=
  val_main_v28 (F := Ideal) x0 x1

/-! ## The words -/

/-- The word of `1.0` denotes `1`. -/
theorem word_one : Ideal.ofBits .f32 0x3F800000#32 = 1 := by
  simp [Ideal.ofBits, Ideal.ieee, -EReal.coe_mul]; norm_num

/-- The word `0x447FC000` denotes the real `1023`. -/
theorem word_1023 : Ideal.ofBits .f32 0x447FC000#32 = ((1023 : ℝ) : EReal) := by
  simp [Ideal.ofBits, Ideal.ieee, -EReal.coe_mul]; norm_num

/-- The integer `1023` converted to a float is the real `1023`. -/
theorem sitofp_1023 : FloatOps.sitofp (F := Ideal) .f32 (1023#32 : BitVec 32) = ((1023 : ℝ) : EReal) := by
  have h : (1023#32 : BitVec 32).toInt = 1023 := by decide
  show (((1023#32 : BitVec 32).toInt : ℝ) : EReal) = ((1023 : ℝ) : EReal)
  rw [h]; norm_num

/-! ## The indices the layout operations read at -/

theorem idx6 (b : Fin 32) (n : Fin 200000) : idx_main_v6 (ix2 b n) = ix3 b n (0 : Fin 1) := by
  have hb := b.isLt
  have hn := n.isLt
  funext a
  match a with
  | ⟨0, _⟩ => exact Fin.ext (by show (b.val * 200000 + n.val) / 200000 = b.val; omega)
  | ⟨1, _⟩ => exact Fin.ext (by show (b.val * 200000 + n.val) / 1 % 200000 = n.val; omega)
  | ⟨2, _⟩ => rfl

theorem idx15 (b : Fin 32) (n : Fin 200000) : idx_main_v15 (ix2 b n) = ix3 b n (0 : Fin 1) := by
  have hb := b.isLt
  have hn := n.isLt
  funext a
  match a with
  | ⟨0, _⟩ => exact Fin.ext (by show (b.val * 200000 + n.val) / 200000 = b.val; omega)
  | ⟨1, _⟩ => exact Fin.ext (by show (b.val * 200000 + n.val) / 1 % 200000 = n.val; omega)
  | ⟨2, _⟩ => rfl

theorem idx28 (b : Fin 32) (n : Fin 200000) : idx_main_v28 (ix2 b n) = ix3 b n (0 : Fin 1) := by
  have hb := b.isLt
  have hn := n.isLt
  funext a
  match a with
  | ⟨0, _⟩ => exact Fin.ext (by show (b.val * 200000 + n.val) / 200000 = b.val; omega)
  | ⟨1, _⟩ => exact Fin.ext (by show (b.val * 200000 + n.val) / 1 % 200000 = n.val; omega)
  | ⟨2, _⟩ => rfl

theorem idx5 (b : Fin 32) (n : Fin 200000) : idx_main_v5 (ix3 b n (0 : Fin 1)) = ix3 b n (0 : Fin 3) := by
  funext a
  match a with
  | ⟨0, _⟩ => rfl
  | ⟨1, _⟩ => rfl
  | ⟨2, _⟩ => rfl

theorem idx14 (b : Fin 32) (n : Fin 200000) : idx_main_v14 (ix3 b n (0 : Fin 1)) = ix3 b n (1 : Fin 3) := by
  funext a
  match a with
  | ⟨0, _⟩ => rfl
  | ⟨1, _⟩ => rfl
  | ⟨2, _⟩ => rfl

theorem idx27 (b : Fin 32) (n : Fin 200000) : idx_main_v27 (ix3 b n (0 : Fin 1)) = ix3 b n (2 : Fin 3) := by
  funext a
  match a with
  | ⟨0, _⟩ => rfl
  | ⟨1, _⟩ => rfl
  | ⟨2, _⟩ => rfl

theorem lidx_eq (b : Fin 32) (n : Fin 200000) (r : Fin 3) (k : Fin 4) : lidx_main_v2 (ix3 b n r) k = ix3 b n k := by
  funext a
  match a with
  | ⟨0, _⟩ => rfl
  | ⟨1, _⟩ => rfl
  | ⟨2, _⟩ => rfl

theorem ridx_eq (b : Fin 32) (n : Fin 200000) (r : Fin 3) (k : Fin 4) : ridx_main_v2 (ix3 b n r) k = ix3 b r k := by
  funext a
  match a with
  | ⟨0, _⟩ => rfl
  | ⟨1, _⟩ => rfl
  | ⟨2, _⟩ => rfl

/-! ## The points with the appended column -/

/-- A column of the first three reads the points. -/
theorem v1_lt (x0 : (⟨S32x200000x3, .f32⟩ : BufTy).Contents (Elt Ideal)) (b : Fin 32) (n : Fin 200000) (k : Fin 4) (k' : Fin 3) (h : k.val = k'.val) :
    val_main_v1 (F := Ideal) x0 (ix3 b n k) = x0 (ix3 b n k') := by
  unfold val_main_v1
  exact concatenate_pair_apply_left (2 : Fin S32x200000x4.rank) x0 (val_main_v0 (F := Ideal))
    concatenates_S32x200000x3_S32x200000x1_S32x200000x4_d2 (ix3 b n k) rfl (ix3 b n k') (fun a => by
      match a with
      | ⟨0, _⟩ => rfl
      | ⟨1, _⟩ => rfl
      | ⟨2, _⟩ => exact h.symm)

/-- The fourth column is the appended one. -/
theorem v1_last (x0 : (⟨S32x200000x3, .f32⟩ : BufTy).Contents (Elt Ideal)) (b : Fin 32) (n : Fin 200000) :
    val_main_v1 (F := Ideal) x0 (ix3 b n (3 : Fin 4)) = 1 := by
  unfold val_main_v1
  rw [concatenate_pair_apply_right (2 : Fin S32x200000x4.rank) x0 (val_main_v0 (F := Ideal))
    concatenates_S32x200000x3_S32x200000x1_S32x200000x4_d2 (ix3 b n (3 : Fin 4)) rfl rfl (ix3 b n (0 : Fin 1))
    (fun a ha => by
      match a, ha with
      | ⟨0, _⟩, _ => rfl
      | ⟨1, _⟩, _ => rfl
      | ⟨2, _⟩, ha => exact absurd rfl ha)
    rfl,
    val_main_v0_apply, val_main_cst_apply]
  exact word_one

/-! ## The three images -/

/-- The contracted sum at a point and a row of the map is the affine image. -/
theorem v2_pt (x0 : (⟨S32x200000x3, .f32⟩ : BufTy).Contents (Elt Ideal)) (x1 : (⟨S32x3x4, .f32⟩ : BufTy).Contents (Elt Ideal)) (b : Fin 32) (n : Fin 200000) (r : Fin 3) :
    val_main_v2 (F := Ideal) x0 x1 (ix3 b n r)
      = affine (x0 (ix3 b n (0 : Fin 3))) (x0 (ix3 b n (1 : Fin 3))) (x0 (ix3 b n (2 : Fin 3)))
          (x1 (ix3 b r (0 : Fin 4))) (x1 (ix3 b r (1 : Fin 4))) (x1 (ix3 b r (2 : Fin 4))) (x1 (ix3 b r (3 : Fin 4))) := by
  rw [val_main_v2_apply, Fin.sum_univ_four]
  simp only [lidx_eq, ridx_eq]
  rw [v1_lt x0 b n (0 : Fin 4) (0 : Fin 3) rfl, v1_lt x0 b n (1 : Fin 4) (1 : Fin 3) rfl,
    v1_lt x0 b n (2 : Fin 4) (2 : Fin 3) rfl, v1_last, one_mul]
  rfl

/-- The halved image. -/
theorem v4_pt (x0 : (⟨S32x200000x3, .f32⟩ : BufTy).Contents (Elt Ideal)) (x1 : (⟨S32x3x4, .f32⟩ : BufTy).Contents (Elt Ideal)) (b : Fin 32) (n : Fin 200000) (r : Fin 3) :
    val_main_v4 (F := Ideal) x0 x1 (ix3 b n r)
      = Ideal.div (affine (x0 (ix3 b n (0 : Fin 3))) (x0 (ix3 b n (1 : Fin 3))) (x0 (ix3 b n (2 : Fin 3)))
          (x1 (ix3 b r (0 : Fin 4))) (x1 (ix3 b r (1 : Fin 4))) (x1 (ix3 b r (2 : Fin 4))) (x1 (ix3 b r (3 : Fin 4)))) w2 := by
  rw [val_main_v4_apply, v2_pt, val_main_v3_apply, val_main_cst_0_apply]
  rfl

theorem v6_pt (x0 : (⟨S32x200000x3, .f32⟩ : BufTy).Contents (Elt Ideal)) (x1 : (⟨S32x3x4, .f32⟩ : BufTy).Contents (Elt Ideal)) (b : Fin 32) (n : Fin 200000) :
    val_main_v6 (F := Ideal) x0 x1 (ix2 b n) = Ideal.div (affine (x0 (ix3 b n (0 : Fin 3))) (x0 (ix3 b n (1 : Fin 3))) (x0 (ix3 b n (2 : Fin 3))) (x1 (ix3 b (0 : Fin 3) (0 : Fin 4))) (x1 (ix3 b (0 : Fin 3) (1 : Fin 4))) (x1 (ix3 b (0 : Fin 3) (2 : Fin 4))) (x1 (ix3 b (0 : Fin 3) (3 : Fin 4)))) w2 := by
  rw [val_main_v6_apply, idx6, val_main_v5_apply, idx5, v4_pt]

theorem v15_pt (x0 : (⟨S32x200000x3, .f32⟩ : BufTy).Contents (Elt Ideal)) (x1 : (⟨S32x3x4, .f32⟩ : BufTy).Contents (Elt Ideal)) (b : Fin 32) (n : Fin 200000) :
    val_main_v15 (F := Ideal) x0 x1 (ix2 b n) = Ideal.div (affine (x0 (ix3 b n (0 : Fin 3))) (x0 (ix3 b n (1 : Fin 3))) (x0 (ix3 b n (2 : Fin 3))) (x1 (ix3 b (1 : Fin 3) (0 : Fin 4))) (x1 (ix3 b (1 : Fin 3) (1 : Fin 4))) (x1 (ix3 b (1 : Fin 3) (2 : Fin 4))) (x1 (ix3 b (1 : Fin 3) (3 : Fin 4)))) w2 := by
  rw [val_main_v15_apply, idx15, val_main_v14_apply, idx14, v4_pt]

/-- The depth of a point is its third image halved. -/
theorem zR_pt (x0 : (⟨S32x200000x3, .f32⟩ : BufTy).Contents (Elt Ideal)) (x1 : (⟨S32x3x4, .f32⟩ : BufTy).Contents (Elt Ideal)) (b : Fin 32) (n : Fin 200000) :
    zR x0 x1 (ix2 b n) = zS (affine (x0 (ix3 b n (0 : Fin 3))) (x0 (ix3 b n (1 : Fin 3))) (x0 (ix3 b n (2 : Fin 3))) (x1 (ix3 b (2 : Fin 3) (0 : Fin 4))) (x1 (ix3 b (2 : Fin 3) (1 : Fin 4))) (x1 (ix3 b (2 : Fin 3) (2 : Fin 4))) (x1 (ix3 b (2 : Fin 3) (3 : Fin 4)))) := by
  show val_main_v28 (F := Ideal) x0 x1 (ix2 b n) = _
  rw [val_main_v28_apply, idx28, val_main_v27_apply, idx27, v4_pt]
  rfl

/-! ## The pixel -/

/-- The clamped pixel column. -/
theorem v13_pt (x0 : (⟨S32x200000x3, .f32⟩ : BufTy).Contents (Elt Ideal)) (x1 : (⟨S32x3x4, .f32⟩ : BufTy).Contents (Elt Ideal)) (b : Fin 32) (n : Fin 200000) :
    val_main_v13 (F := Ideal) x0 x1 (ix2 b n) = colOf (affine (x0 (ix3 b n (0 : Fin 3))) (x0 (ix3 b n (1 : Fin 3))) (x0 (ix3 b n (2 : Fin 3))) (x1 (ix3 b (0 : Fin 3) (0 : Fin 4))) (x1 (ix3 b (0 : Fin 3) (1 : Fin 4))) (x1 (ix3 b (0 : Fin 3) (2 : Fin 4))) (x1 (ix3 b (0 : Fin 3) (3 : Fin 4)))) := by
  rw [val_main_v13_apply, val_main_call0_v4_apply, val_main_call0_v3_apply, val_main_c_apply, val_main_call0_v2_apply,
    val_main_call0_v1_apply, val_main_call0_v0_apply, val_main_cst_4_apply, val_main_v12_apply, val_main_v10_apply,
    val_main_v8_apply, v6_pt, val_main_v7_apply, val_main_cst_1_apply, val_main_v9_apply, val_main_cst_2_apply,
    val_main_v11_apply, val_main_cst_3_apply, sitofp_1023, ← word_1023]
  rfl

/-- The clamped pixel row. -/
theorem v22_pt (x0 : (⟨S32x200000x3, .f32⟩ : BufTy).Contents (Elt Ideal)) (x1 : (⟨S32x3x4, .f32⟩ : BufTy).Contents (Elt Ideal)) (b : Fin 32) (n : Fin 200000) :
    val_main_v22 (F := Ideal) x0 x1 (ix2 b n) = rowOf (affine (x0 (ix3 b n (0 : Fin 3))) (x0 (ix3 b n (1 : Fin 3))) (x0 (ix3 b n (2 : Fin 3))) (x1 (ix3 b (1 : Fin 3) (0 : Fin 4))) (x1 (ix3 b (1 : Fin 3) (1 : Fin 4))) (x1 (ix3 b (1 : Fin 3) (2 : Fin 4))) (x1 (ix3 b (1 : Fin 3) (3 : Fin 4)))) := by
  rw [val_main_v22_apply, val_main_call1_v4_apply, val_main_call1_v3_apply, val_main_c_9_apply, val_main_call1_v2_apply,
    val_main_call1_v1_apply, val_main_call1_v0_apply, val_main_cst_8_apply, val_main_v21_apply, val_main_v19_apply,
    val_main_v17_apply, val_main_v16_apply, val_main_cst_5_apply, v15_pt, val_main_v18_apply, val_main_cst_6_apply,
    val_main_v20_apply, val_main_cst_7_apply, sitofp_1023, ← word_1023]
  rfl

/-- Three 32-bit words summed in the reference's order and in the specification's. -/
theorem addi_reorder (B R C : BitVec 32) : IntOp.addi (IntOp.addi B R) C = IntOp.addi (IntOp.addi R C) B := by
  show (B + R) + C = (R + C) + B
  rw [BitVec.add_comm B R, BitVec.add_assoc R B C, BitVec.add_comm B C, BitVec.add_assoc R C B]

/-- The flat pixel index of a point. -/
theorem pixR_pt (x0 : (⟨S32x200000x3, .f32⟩ : BufTy).Contents (Elt Ideal)) (x1 : (⟨S32x3x4, .f32⟩ : BufTy).Contents (Elt Ideal)) (b : Fin 32) (n : Fin 200000) :
    pixR x0 x1 (ix2 b n) = pixS (BitVec.ofNat 32 b.val) (affine (x0 (ix3 b n (0 : Fin 3))) (x0 (ix3 b n (1 : Fin 3))) (x0 (ix3 b n (2 : Fin 3))) (x1 (ix3 b (0 : Fin 3) (0 : Fin 4))) (x1 (ix3 b (0 : Fin 3) (1 : Fin 4))) (x1 (ix3 b (0 : Fin 3) (2 : Fin 4))) (x1 (ix3 b (0 : Fin 3) (3 : Fin 4)))) (affine (x0 (ix3 b n (0 : Fin 3))) (x0 (ix3 b n (1 : Fin 3))) (x0 (ix3 b n (2 : Fin 3))) (x1 (ix3 b (1 : Fin 3) (0 : Fin 4))) (x1 (ix3 b (1 : Fin 3) (1 : Fin 4))) (x1 (ix3 b (1 : Fin 3) (2 : Fin 4))) (x1 (ix3 b (1 : Fin 3) (3 : Fin 4)))) := by
  show val_main_v37 (F := Ideal) x0 x1 (ix2 b n) = _
  rw [val_main_v37_apply, val_main_v36_apply, val_main_v35_apply, val_main_v32_apply, val_main_v30_apply,
    val_main_v29_apply, val_main_v31_apply, val_main_c_10_apply, val_main_v34_apply, val_main_v26_apply,
    val_main_v25_apply, v22_pt, val_main_v33_apply, val_main_c_11_apply, val_main_v24_apply, val_main_v23_apply, v13_pt]
  exact addi_reorder _ _ _

end Cert.ReferenceIdeal.RefPoint

end
-- ==== Proof.Bridge.lean ====
/-
  The two programs compute the same pixel indices and the same depths.

  Entry `(b, n)` of the kernel's pixel-index array and of the reference's is the flat pixel index of point `n` of batch
  `b`: the kernel multiplies the point's coordinates by a row of the batch's matrix and adds them up with the row's
  last entry, the reference contracts the point extended by a one with the row, and on the extended reals these are one
  sum; from there on the two apply the same operations. The same holds of the depths.
-/
import proofs.«162000_j8263517077853_2_alg».proof.Proof.KITail
import proofs.«162000_j8263517077853_2_alg».proof.Proof.RefPoint
import proofs.«162000_j8263517077853_2_alg».proof.Proof.RefEval

noncomputable section

namespace Cert.Bridge

open Idealize.ShloMosaic Idealize.ShloMosaic.ValueIdx
open Cert.PointMath

theorem pix_eq (A : Cert.ReferenceIdeal.S32x200000x3.Idx → Ideal .f32) (T : Cert.ReferenceIdeal.S32x3x4.Idx → Ideal .f32) :
    Cert.KernelIdeal.KValue.Gpix A T = Cert.ReferenceIdeal.RefPoint.pixR A T := by
  funext i
  obtain ⟨b, n, rfl⟩ : ∃ (b : Fin 32) (n : Fin 200000), i = ix2 b n := ⟨i 0, i 1, eq_ix2 i⟩
  rw [Cert.ReferenceIdeal.RefPoint.pixR_pt]
  rfl

theorem z_eq (A : Cert.ReferenceIdeal.S32x200000x3.Idx → Ideal .f32) (T : Cert.ReferenceIdeal.S32x3x4.Idx → Ideal .f32) :
    Cert.KernelIdeal.KValue.Gz A T = Cert.ReferenceIdeal.RefPoint.zR A T := by
  funext i
  obtain ⟨b, n, rfl⟩ : ∃ (b : Fin 32) (n : Fin 200000), i = ix2 b n := ⟨i 0, i 1, eq_ix2 i⟩
  rw [Cert.ReferenceIdeal.RefPoint.zR_pt]
  rfl

end Cert.Bridge

end
-- ==== Proof.lean ====
/-
  The certificate of the point-cloud projection kernel against its jnp reference.

  Both programs send every point `(x, y, z)` of batch `b` through the batch's affine map, halve the three images, turn the
  first two into a pixel of a `1024 × 1024` map (clamped, floored) and keep the third as the point's depth; then, per
  pixel, the point with the largest number wins and the pixel takes its depth, empty pixels zero. The kernel computes
  the pixel indices and depths block by block over the points (the last block hanging over the array's end, its
  columns past the end never reaching a column inside it), the reference with one contraction over the whole cloud; the
  scatter, the gather and the final layout are the same host lines in both.

  The three frames: each kernel body, at any float instance, runs from its staging buffers to the stored blocks
  (the two word-level and idealized kernels have one text, so one proof each by the same steps); the reference's run
  is its operations' fold. `preserves` states nothing: the idealization rewrote no operation. For `algebraic`: the
  kernel's two output arrays are, entry by entry, the pixel index and depth of the point (`Gpix`, `Gz`), the
  reference's two intermediate arrays are the same functions (the contraction over four terms is the kernel's sum, the
  appended one times the last matrix entry is that entry, the integer sum is reordered), and both results are the one
  tail function of those arrays. No law used needs a finite input, so the precondition is never opened.
-/
import proofs.«162000_j8263517077853_2_alg».proof.Defs
import proofs.«162000_j8263517077853_2_alg».proof.Proof.Gen.Kernel
import proofs.«162000_j8263517077853_2_alg».proof.Proof.Gen.KernelIdeal
import proofs.«162000_j8263517077853_2_alg».proof.Proof.Gen.ReferenceIdeal
import proofs.«162000_j8263517077853_2_alg».proof.Proof.Gen.Pre_finite_inputs
import proofs.«162000_j8263517077853_2_alg».proof.Proof.KBody
import proofs.«162000_j8263517077853_2_alg».proof.Proof.KITail
import proofs.«162000_j8263517077853_2_alg».proof.Proof.RefEval
import proofs.«162000_j8263517077853_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Body.frame m ρ

/-- The idealized kernel runs and keeps its arguments. -/
theorem frame_ki : Cert.frame_KernelIdeal := fun m ρ _ => Cert.KernelIdeal.Body.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefEval.run m ρ)

/-- The idealization rewrote nothing. -/
theorem preserves : Cert.preserves_Kernel_KernelIdeal := trivial

/-- From arguments that agree both programs end at the tail function of the same pixel indices and depths. -/
theorem algebraic : Cert.algebraic_KernelIdeal_ReferenceIdeal := by
  intro m ρ m' ρ' _ hagree
  refine ⟨_, Cert.KernelIdeal.KTail.run m ρ, ?_⟩
  refine (θ_run Cert.ReferenceIdeal.defs _ _).mono (fun _ h c => ⟨(h c).1.trans ?_, (h c).2⟩)
    (Cert.ReferenceIdeal.RefEval.run m' ρ')
  rw [(hagree c).1, (hagree c).2]
  exact (congrArg₂ Cert.TailMath.tail (Cert.Bridge.pix_eq _ _) (Cert.Bridge.z_eq _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
